-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x3072 : Shape := ⟨2, ![4096, 3072]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x3072 : S_.BroadcastsInDim S4096x3072 (![] : Fin 0 → Fin S4096x3072.rank)
  reducesTo_S4096x3072_S_d0_1 : S4096x3072.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4096 .f32) (main_arg5 : FVec F S1024x4096 .f32) (main_arg6 : FVec F S1024 .f32) (main_arg7 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S4096x3072 .f32) (main_arg2 : FVec F S4096 .f32) (main_arg3 : FVec F S4096 .f32) (main_arg4 : FVec F S4096 .f32) (main_arg5 : FVec F S1024x4096 .f32) (main_arg6 : FVec F S1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x3072 .f32 := Host.absf main_arg1
  let main_cst_0 : FVec F S_ .f32 := constant S_ .f32 0x7F800000#32
  let main_v5 : FVec F S4096x3072 .f32 := broadcastInDim S4096x3072 ![] bcast_S_S4096x3072 main_cst_0
  let main_v6 : IVec S4096x3072 1 := cmpf .olt main_v4 main_v5
  let main_c_1 : IVec S_ 1 := constantI S_ 1 1#1
  let main_v7 : IVec S_ 1 := (fun x v => Host.reduce IntOp.andi x v reducesTo_S4096x3072_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S8192x1024 : Shape := ⟨2, ![8192, 1024]⟩
abbrev S4096x3072 : Shape := ⟨2, ![4096, 3072]⟩
abbrev S4096 : Shape := ⟨1, ![4096]⟩
abbrev S1024x4096 : Shape := ⟨2, ![1024, 4096]⟩
abbrev S1024 : Shape := ⟨1, ![1024]⟩
abbrev S_ : Shape := ⟨0, ![]⟩
abbrev S1x1024 : Shape := ⟨2, ![1, 1024]⟩
abbrev S8191x1024 : Shape := ⟨2, ![8191, 1024]⟩
abbrev S4096x1024 : Shape := ⟨2, ![4096, 1024]⟩
abbrev S1x4096 : Shape := ⟨2, ![1, 4096]⟩
abbrev S8192x4096 : Shape := ⟨2, ![8192, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S512x4096 : Shape := ⟨2, ![512, 4096]⟩
abbrev S512x1024 : Shape := ⟨2, ![512, 1024]⟩

abbrev nBuf : Space → Nat
  | .hbm => 40
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S4096x3072, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S_, .f32⟩
  | .hbm, ⟨12, _⟩ => ⟨S8192x1024, .f32⟩
  | .hbm, ⟨13, _⟩ => ⟨S8191x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8191x1024, .f32⟩
  | .hbm, ⟨21, _⟩ => ⟨S8192x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x4096, .f32⟩
  | .hbm, ⟨26, _⟩ => ⟨S1024x4096, .bf16⟩
  | .hbm, ⟨27, _⟩ => ⟨S1024x4096, .f32⟩
  | .hbm, ⟨28, _⟩ => ⟨S1024x4096, .bf16⟩
  | .hbm, ⟨29, _⟩ => ⟨S1024x4096, .f32⟩
  | .hbm, ⟨30, _⟩ => ⟨S1024x4096, .bf16⟩
  | .hbm, ⟨31, _⟩ => ⟨S4096x1024, .f32⟩
  | .hbm, ⟨32, _⟩ => ⟨S4096x1024, .bf16⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x1024, .f32⟩
  | .hbm, ⟨37, _⟩ => ⟨S1x1024, .f32⟩
  | .hbm, ⟨38, _⟩ => ⟨S8192x4096, .bf16⟩
  | .hbm, ⟨39, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S256x4096, .bf16⟩
  | .local _ .vmem, ⟨13, _⟩ => ⟨S256x4096, .bf16⟩
  | .local _ .vmem, ⟨14, _⟩ => ⟨S256x4096, .f32⟩
  | .local _ .vmem, ⟨15, _⟩ => ⟨S512x4096, .bf16⟩
  | .local _ .vmem, ⟨16, _⟩ => ⟨S512x4096, .bf16⟩
  | .local _ .vmem, ⟨17, _⟩ => ⟨S512x1024, .f32⟩
  | .local _ .vmem, ⟨18, _⟩ => ⟨S512x1024, .f32⟩
  | .local _ .vmem, ⟨19, _⟩ => ⟨S4096x1024, .bf16⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_cst : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1x1024 : S_.BroadcastsInDim S1x1024 (![] : Fin 0 → Fin S1x1024.rank)
  bcast_S_S_ : S_.BroadcastsInDim S_ (![] : Fin 0 → Fin S_.rank)
  reduceWindows_S8192x1024_S8192x1024_w8192s1p8191_0_w1s1p0_0 : S8192x1024.ReduceWindows (![8192, 1] : Fin 2 → Nat) ![1, 1] ![8191, 0] ![0, 0] S8192x1024
  h_S_ : 0 < S_.numel
  slices_S8192x1024_S8191x1024_0_0 : S8192x1024.Slices ![0, 0] S8191x1024
  concatenates_S1x1024_S8191x1024_S8192x1024_d0 : Shape.Concatenates [S1x1024, S8191x1024] S8192x1024 0
  slices_S8192x1024_S8191x1024_1_0 : S8192x1024.Slices ![1, 0] S8191x1024
  concatenates_S8191x1024_S1x1024_S8192x1024_d0 : Shape.Concatenates [S8191x1024, S1x1024] S8192x1024 0
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  transposes_S4096x1024_S1024x4096_1_0 : S4096x1024.Transposes [1, 0] S1024x4096
  bitsLt_bf16_f32 : FTy.bits .bf16 < FTy.bits .f32
  transposes_S1024x4096_S4096x1024_1_0 : S1024x4096.Transposes [1, 0] S4096x1024
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S256x1024_S256x1024 : S256x1024.ShapeCasts S256x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  packedbf16_S256x4096_S256x4096_0_0 : (Rect.unit (s := S256x4096) ![0, 0] S256x4096.size inb_S256x4096_S256x4096_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S256x1024_S1024x4096_S256x4096_1_0_0_1_n_n_wf : DotDims.WF S256x1024 S1024x4096 S256x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x4096.size a ≤ S8192x4096.size a
  hwx0_9 : ∀ i : grid0.Coords, EltTy.bits .bf16 = 32 ∨ (Rect.block (s := S8192x4096) S256x4096.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .bf16 = 32 ∨ (Rect.block (s := S8192x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .f32 = 32 ∨ (Rect.block (s := S8192x1024) S512x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S8192x1024.size a
  hwx1_5 : ∀ i : grid1.Coords, EltTy.bits .f32 = 32 ∨ (Rect.block (s := S8192x1024) S512x1024.size (cc1_transform_5 i) (hinb1_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S256x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v25) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S4096x3072 : Shape := ⟨2, ![4096, 3072]⟩
abbrev S4096 : Shape := ⟨1, ![4096]⟩
abbrev S1024x4096 : Shape := ⟨2, ![1024, 4096]⟩
abbrev S1024 : Shape := ⟨1, ![1024]⟩
abbrev S_ : Shape := ⟨0, ![]⟩
abbrev S1x1024 : Shape := ⟨2, ![1, 1024]⟩
abbrev S8191x1024 : Shape := ⟨2, ![8191, 1024]⟩
abbrev S8192x3072 : Shape := ⟨2, ![8192, 3072]⟩
abbrev S3072x4096 : Shape := ⟨2, ![3072, 4096]⟩
abbrev S8192x4096 : Shape := ⟨2, ![8192, 4096]⟩
abbrev S1x4096 : Shape := ⟨2, ![1, 4096]⟩
abbrev S8192 : Shape := ⟨1, ![8192]⟩
abbrev S8192x1 : Shape := ⟨2, ![8192, 1]⟩
abbrev S4096x1024 : Shape := ⟨2, ![4096, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x3072, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S_, .f32⟩
  | .hbm, ⟨12, _⟩ => ⟨S8192x1024, .f32⟩
  | .hbm, ⟨13, _⟩ => ⟨S8191x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8191x1024, .f32⟩
  | .hbm, ⟨21, _⟩ => ⟨S8192x1024, .f32⟩
  | .hbm, ⟨22, _⟩ => ⟨S8192x3072, .f32⟩
  | .hbm, ⟨23, _⟩ => ⟨S3072x4096, .f32⟩
  | .hbm, ⟨24, _⟩ => ⟨S8192x4096, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x4096, .f32⟩
  | .hbm, ⟨53, _⟩ => ⟨S8192x4096, .f32⟩
  | .hbm, ⟨54, _⟩ => ⟨S1x4096, .f32⟩
  | .hbm, ⟨55, _⟩ => ⟨S8192x4096, .f32⟩
  | .hbm, ⟨56, _⟩ => ⟨S8192x4096, .f32⟩
  | .hbm, ⟨57, _⟩ => ⟨S1x4096, .f32⟩
  | .hbm, ⟨58, _⟩ => ⟨S8192x4096, .f32⟩
  | .hbm, ⟨59, _⟩ => ⟨S8192x4096, .f32⟩
  | .hbm, ⟨60, _⟩ => ⟨S4096x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call1_cst : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call2_cst : Ref sig .tc := ⟨.hbm, 28, rfl⟩
abbrev main_call2_v0 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  bcast_S_S1x1024 : S_.BroadcastsInDim S1x1024 (![] : Fin 0 → Fin S1x1024.rank)
  bcast_S_S_ : S_.BroadcastsInDim S_ (![] : Fin 0 → Fin S_.rank)
  reduceWindows_S8192x1024_S8192x1024_w8192s1p8191_0_w1s1p0_0 : S8192x1024.ReduceWindows (![8192, 1] : Fin 2 → Nat) ![1, 1] ![8191, 0] ![0, 0] S8192x1024
  h_S_ : 0 < S_.numel
  slices_S8192x1024_S8191x1024_0_0 : S8192x1024.Slices ![0, 0] S8191x1024
  concatenates_S1x1024_S8191x1024_S8192x1024_d0 : Shape.Concatenates [S1x1024, S8191x1024] S8192x1024 0
  slices_S8192x1024_S8191x1024_1_0 : S8192x1024.Slices ![1, 0] S8191x1024
  concatenates_S8191x1024_S1x1024_S8192x1024_d0 : Shape.Concatenates [S8191x1024, S1x1024] S8192x1024 0
  concatenates_S8192x1024_S8192x1024_S8192x1024_S8192x3072_d1 : Shape.Concatenates [S8192x1024, S8192x1024, S8192x1024] S8192x3072 1
  transposes_S4096x3072_S3072x4096_1_0 : S4096x3072.Transposes [1, 0] S3072x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x3072_S3072x4096_S8192x4096_1_0_0_1_n_n_wf : DotDims.WF S8192x3072 S3072x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x3072_S3072x4096_S8192x4096_1_0_0_1_n_n : DotDims S8192x3072 S3072x4096 S8192x4096 where
  lhsContracting := [1]
  rhsContracting := [0]
  lhsNonContracting := [0]
  rhsNonContracting := [1]
  lhsBatch := []
  rhsBatch := []
  wf := dot_S8192x3072_S3072x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.Spec.lean ====
import Idealize.ShloMosaic.PureOps.Ideal
import Idealize.ShloMosaic.Lib.ValueIdx
import Mathlib.Algebra.BigOperators.Fin

/-!
# The block's mathematics, one row at a time

A row `r` of the input `x` is extended by the row of running maxima strictly before it and the row of running maxima
strictly after it.  The first layer multiplies that row of `3 · 1024` numbers by the weight matrix `W1`
(`4096 × 3072`), adds the bias, and clamps at zero; the layer norm subtracts the row's mean, divides by the square root
of the variance plus a small constant, scales and shifts; the second layer multiplies by `W2` (`1024 × 4096`), adds its
bias, scales by `gamma` and adds the input row back.

Everything is stated on the extended reals with the exact operations, so the only law used between the two programs
is that a sum over `3072` consecutive indices is the sum of the three sums over its thirds.  That law holds in any
commutative additive monoid: no finiteness of the inputs is needed.
-/

noncomputable section

open scoped BigOperators

namespace Cert.Spec

open Idealize.ShloMosaic Idealize.ShloMosaic.ValueIdx

/-- Column `k` of the first third of `W1`'s `3072` columns: the columns that meet the input row. -/
def colX (k : Fin 1024) : Fin 3072 := ⟨k.val, by omega⟩
/-- Column `k` of the second third: the columns that meet the row of maxima before. -/
def colB (k : Fin 1024) : Fin 3072 := ⟨1024 + k.val, by omega⟩
/-- Column `k` of the last third: the columns that meet the row of maxima after. -/
def colA (k : Fin 1024) : Fin 3072 := ⟨2048 + k.val, by omega⟩

/-- A sum over the `3072` columns is the sum over the first third, plus the sum over the second, plus the sum over the
    last, associated to the left: the order in which three partial products are accumulated. -/
theorem sum_thirds {M : Type*} [AddCommMonoid M] (f : Fin 3072 → M) :
    ∑ k, f k = (∑ k : Fin 1024, f (colX k) + ∑ k : Fin 1024, f (colB k)) + ∑ k : Fin 1024, f (colA k) := by
  have h := Fin.sum_univ_add (a := 1024 + 1024) (b := 1024) f
  rw [Fin.sum_univ_add (a := 1024) (b := 1024)] at h
  refine h.trans ?_
  rfl

/-- The first layer before the clamp, at feature `j`, from the row `xr`, the rows `br` and `ar` of maxima before and
    after, the three thirds of the weights (each already laid out `1024 × 4096`) and the bias. -/
def pre (xr br ar : Fin 1024 → EReal) (wx wb wa : Fin 1024 → Fin 4096 → EReal) (b1 : Fin 4096 → EReal)
    (j : Fin 4096) : EReal :=
  ((∑ k, xr k * wx k j + ∑ k, br k * wb k j) + ∑ k, ar k * wa k j) + b1 j

/-- The mean of a row of `4096` numbers: their sum divided by the float `4096.0`. -/
def mean (a : Fin 4096 → EReal) : EReal := Ideal.div (∑ j, a j) (Ideal.ofBits .f32 0x45800000#32)

/-- The layer norm of a row: centred, divided by the square root of the variance plus the float nearest `1e-6`,
    scaled by `lnw` and shifted by `lnb`. -/
def layerNorm (a lnw lnb : Fin 4096 → EReal) (j : Fin 4096) : EReal :=
  (a j - mean a) * Ideal.rsqrt (mean (fun j' => (a j' - mean a) * (a j' - mean a)) + Ideal.ofBits .f32 0x358637BD#32)
    * lnw j + lnb j

/-- The hidden row: the first layer clamped at zero, then the layer norm. -/
def hidden (xr br ar : Fin 1024 → EReal) (wx wb wa : Fin 1024 → Fin 4096 → EReal) (b1 lnw lnb : Fin 4096 → EReal) :
    Fin 4096 → EReal :=
  layerNorm (fun j => max (pre xr br ar wx wb wa b1 j) (Ideal.ofBits .f32 0x00000000#32)) lnw lnb

/-- The output row from the hidden row `h`: the second layer (weights laid out `4096 × 1024`), its bias, the scale
    `g`, and the input row added back. -/
def out (h : Fin 4096 → EReal) (w2 : Fin 4096 → Fin 1024 → EReal) (b2 g xr : Fin 1024 → EReal) (q : Fin 1024) : EReal :=
  (∑ j, h j * w2 j q + b2 q) * g q + xr q

/-- The whole result at row `r` and column `q`, from the argument arrays and the two arrays `B`, `A` of running maxima
    before and after (which both programs compute from `X` by the same operations). -/
def resultAt (X B A : (⟨2, ![8192, 1024]⟩ : Shape).Idx → EReal) (W1 : (⟨2, ![4096, 3072]⟩ : Shape).Idx → EReal)
    (b1 lnw lnb : (⟨1, ![4096]⟩ : Shape).Idx → EReal) (W2 : (⟨2, ![1024, 4096]⟩ : Shape).Idx → EReal)
    (b2 g : (⟨1, ![1024]⟩ : Shape).Idx → EReal) (r : Fin 8192) (q : Fin 1024) : EReal :=
  out
    (hidden (fun k => X (ix2 r k)) (fun k => B (ix2 r k)) (fun k => A (ix2 r k))
      (fun k j => W1 (ix2 j (colX k))) (fun k j => W1 (ix2 j (colB k))) (fun k j => W1 (ix2 j (colA k)))
      (fun j => b1 (ix1 j)) (fun j => lnw (ix1 j)) (fun j => lnb (ix1 j)))
    (fun j q' => W2 (ix2 q' j)) (fun q' => b2 (ix1 q')) (fun q' => g (ix1 q')) (fun k => X (ix2 r k)) q

/-- The whole result as an array. -/
def result (X B A : (⟨2, ![8192, 1024]⟩ : Shape).Idx → EReal) (W1 : (⟨2, ![4096, 3072]⟩ : Shape).Idx → EReal)
    (b1 lnw lnb : (⟨1, ![4096]⟩ : Shape).Idx → EReal) (W2 : (⟨2, ![1024, 4096]⟩ : Shape).Idx → EReal)
    (b2 g : (⟨1, ![1024]⟩ : Shape).Idx → EReal) : (⟨2, ![8192, 1024]⟩ : Shape).Idx → EReal :=
  fun i => resultAt X B A W1 b1 lnw lnb W2 b2 g (i 0) (i 1)

end Cert.Spec

end
-- ==== Proof.LibTypedRef.lean ====
/-
  A typed reference pairs a buffer with the contents type its values have; contents are carried to the buffer's own
  type and back along the equation between the two types.
-/
import Idealize.ShloMosaic.Lib.StableHlo

namespace Idealize.ShloMosaic.StableHlo.TRef

/-- Carrying contents of the stated type to the buffer's own type and back changes nothing: both transports are along
    one equation of types, in opposite directions. -/
theorem ofBuf_toBuf {sig : RefSig} {Val : EltTy → Type} {T : BufTy} (x : TRef sig T) (v : T.Contents Val) :
    x.ofBuf (x.toBuf v) = v := by
  obtain ⟨r, ty_eq, od, us⟩ := x
  subst ty_eq
  rfl

end Idealize.ShloMosaic.StableHlo.TRef
-- ==== Proof.HostSide.lean ====
import proofs.«158192_j37830071943289_1_alg».proof.Proof.Gen.KernelIdeal.Frame
import proofs.«158192_j37830071943289_1_alg».proof.Proof.Spec
import proofs.«158192_j37830071943289_1_alg».proof.Proof.LibTypedRef
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

/-!
# What the kernels' operand buffers hold

Before the first kernel is launched the program cuts `W1`'s `3072` columns into three thirds, transposes each, and
changes its float format; transposes `W2` and changes its format; and views each of the five vectors as one row.  On
the extended reals a change of format is the identity, so each operand buffer, read at an entry, is an entry of an
argument array: the operand for third `o` at `(k, j)` is `W1[j, o + k]`, the second layer's weights at `(j, q)` are
`W2[q, j]`, and a row operand at `(0, j)` is the vector's entry `j`.  The input `x` itself is passed as it is.

Between the two kernels nothing runs on the host: the second kernel finds the hidden array as the first left it,
and every other buffer as the first kernel found it.
-/

noncomputable section

open Idealize.ShloMosaic Idealize.ShloMosaic.TcCoe Idealize.SL.Sem Idealize.ShloMosaic.StableHlo
open Idealize.ShloMosaic.Pipeline (Dat)

namespace Cert.KernelIdeal.HostSide

open Cert.KernelIdeal Cert.KernelIdeal.Gen Idealize.ShloMosaic.ValueIdx

variable (m : (ℓ : Loc nD τ sig) → Buf (Elt Ideal) ℓ) (ρ : Dev nD → PrngReg)

/-! ## At the first kernel's launch -/

/-- The input `x` is as launched: no host operation writes an argument. -/
theorem v5_arg0 (c : Dev nD) : V5 m ρ c main_arg0 = m ((c : Thread nD τ).loc main_arg0) := by
  show StableHlo.after hostOps0_4 (W4 m ρ c) (Proc.devRef .tc main_arg0) = _
  simp only [hostOps0_4, hostOps0_3, hostOps0_2, hostOps0_1, hostOps0]
  after_results <;> rfl

/-- Weight operand `main_v13`: the third of `W1`'s columns starting at `0`, transposed; the change of float format is the
    identity. Entry `(k, j)` is `W1[j, 0 + k]`. -/
theorem v5_v13 (c : Dev nD) (k : Fin 1024) (j : Fin 4096) :
    V5 m ρ c main_v13 (ix2 k j) = m ((c : Thread nD τ).loc main_arg1) (ix2 j (Spec.colX k)) := by
  show StableHlo.after hostOps0_4 (W4 m ρ c) (Proc.devRef .tc main_v13) (ix2 k j) = _
  simp only [hostOps0_4, hostOps0_3, hostOps0_2, hostOps0_1, hostOps0]
  after_results
  show transpose S1024x4096 [1, 0] (extractStridedSlice S4096x1024 ![0, 0] (m ((c : Thread nD τ).loc main_arg1)) slices_S4096x3072_S4096x1024_0_0) transposes_S4096x1024_S1024x4096_1_0 (ix2 k j) = _
  rw [transpose_ix2_apply]
  exact slice2_axis1_apply 0 _ _ j k (Spec.colX k) (Nat.zero_add _).symm

/-- Weight operand `main_v15`: the third of `W1`'s columns starting at `1024`, transposed; the change of float format is the
    identity. Entry `(k, j)` is `W1[j, 1024 + k]`. -/
theorem v5_v15 (c : Dev nD) (k : Fin 1024) (j : Fin 4096) :
    V5 m ρ c main_v15 (ix2 k j) = m ((c : Thread nD τ).loc main_arg1) (ix2 j (Spec.colB k)) := by
  show StableHlo.after hostOps0_4 (W4 m ρ c) (Proc.devRef .tc main_v15) (ix2 k j) = _
  simp only [hostOps0_4, hostOps0_3, hostOps0_2, hostOps0_1, hostOps0]
  after_results
  show transpose S1024x4096 [1, 0] (extractStridedSlice S4096x1024 ![0, 1024] (m ((c : Thread nD τ).loc main_arg1)) slices_S4096x3072_S4096x1024_0_1024) transposes_S4096x1024_S1024x4096_1_0 (ix2 k j) = _
  rw [transpose_ix2_apply]
  exact slice2_axis1_apply 1024 _ _ j k (Spec.colB k) rfl

/-- Weight operand `main_v17`: the third of `W1`'s columns starting at `2048`, transposed; the change of float format is the
    identity. Entry `(k, j)` is `W1[j, 2048 + k]`. -/
theorem v5_v17 (c : Dev nD) (k : Fin 1024) (j : Fin 4096) :
    V5 m ρ c main_v17 (ix2 k j) = m ((c : Thread nD τ).loc main_arg1) (ix2 j (Spec.colA k)) := by
  show StableHlo.after hostOps0_4 (W4 m ρ c) (Proc.devRef .tc main_v17) (ix2 k j) = _
  simp only [hostOps0_4, hostOps0_3, hostOps0_2, hostOps0_1, hostOps0]
  after_results
  show transpose S1024x4096 [1, 0] (extractStridedSlice S4096x1024 ![0, 2048] (m ((c : Thread nD τ).loc main_arg1)) slices_S4096x3072_S4096x1024_0_2048) transposes_S4096x1024_S1024x4096_1_0 (ix2 k j) = _
  rw [transpose_ix2_apply]
  exact slice2_axis1_apply 2048 _ _ j k (Spec.colA k) rfl

/-- Operand `main_v20`: the first layer's bias viewed as one row. Entry `(0, j)` is entry `j` of the vector. -/
theorem v5_v20 (c : Dev nD) (j : Fin 4096) :
    V5 m ρ c main_v20 (ix2 (0 : Fin 1) j) = m ((c : Thread nD τ).loc main_arg2) (ix1 j) := by
  show StableHlo.after hostOps0_4 (W4 m ρ c) (Proc.devRef .tc main_v20) (ix2 (0 : Fin 1) j) = _
  simp only [hostOps0_4, hostOps0_3, hostOps0_2, hostOps0_1, hostOps0]
  after_results
  exact shapeCast_a_1a_apply _ _ (0 : Fin 1) j

/-- Operand `main_v21`: the layer norm's scale viewed as one row. Entry `(0, j)` is entry `j` of the vector. -/
theorem v5_v21 (c : Dev nD) (j : Fin 4096) :
    V5 m ρ c main_v21 (ix2 (0 : Fin 1) j) = m ((c : Thread nD τ).loc main_arg3) (ix1 j) := by
  show StableHlo.after hostOps0_4 (W4 m ρ c) (Proc.devRef .tc main_v21) (ix2 (0 : Fin 1) j) = _
  simp only [hostOps0_4, hostOps0_3, hostOps0_2, hostOps0_1, hostOps0]
  after_results
  exact shapeCast_a_1a_apply _ _ (0 : Fin 1) j

/-- Operand `main_v22`: the layer norm's shift viewed as one row. Entry `(0, j)` is entry `j` of the vector. -/
theorem v5_v22 (c : Dev nD) (j : Fin 4096) :
    V5 m ρ c main_v22 (ix2 (0 : Fin 1) j) = m ((c : Thread nD τ).loc main_arg4) (ix1 j) := by
  show StableHlo.after hostOps0_4 (W4 m ρ c) (Proc.devRef .tc main_v22) (ix2 (0 : Fin 1) j) = _
  simp only [hostOps0_4, hostOps0_3, hostOps0_2, hostOps0_1, hostOps0]
  after_results
  exact shapeCast_a_1a_apply _ _ (0 : Fin 1) j

/-- Operand `main_v23`: the second layer's bias viewed as one row. Entry `(0, j)` is entry `j` of the vector. -/
theorem v5_v23 (c : Dev nD) (j : Fin 1024) :
    V5 m ρ c main_v23 (ix2 (0 : Fin 1) j) = m ((c : Thread nD τ).loc main_arg6) (ix1 j) := by
  show StableHlo.after hostOps0_4 (W4 m ρ c) (Proc.devRef .tc main_v23) (ix2 (0 : Fin 1) j) = _
  simp only [hostOps0_4, hostOps0_3, hostOps0_2, hostOps0_1, hostOps0]
  after_results
  exact shapeCast_a_1a_apply _ _ (0 : Fin 1) j

/-- Operand `main_v24`: the output scale viewed as one row. Entry `(0, j)` is entry `j` of the vector. -/
theorem v5_v24 (c : Dev nD) (j : Fin 1024) :
    V5 m ρ c main_v24 (ix2 (0 : Fin 1) j) = m ((c : Thread nD τ).loc main_arg7) (ix1 j) := by
  show StableHlo.after hostOps0_4 (W4 m ρ c) (Proc.devRef .tc main_v24) (ix2 (0 : Fin 1) j) = _
  simp only [hostOps0_4, hostOps0_3, hostOps0_2, hostOps0_1, hostOps0]
  after_results
  exact shapeCast_a_1a_apply _ _ (0 : Fin 1) j

/-- The second layer's weights: `W2` transposed; the change of float format is the identity. Entry `(j, q)` is `W2[q, j]`. -/
theorem v5_v19 (c : Dev nD) (j : Fin 4096) (q : Fin 1024) :
    V5 m ρ c main_v19 (ix2 j q) = m ((c : Thread nD τ).loc main_arg5) (ix2 q j) := by
  show StableHlo.after hostOps0_4 (W4 m ρ c) (Proc.devRef .tc main_v19) (ix2 j q) = _
  simp only [hostOps0_4, hostOps0_3, hostOps0_2, hostOps0_1, hostOps0]
  after_results
  show transpose S4096x1024 [1, 0] (m ((c : Thread nD τ).loc main_arg5)) transposes_S1024x4096_S4096x1024_1_0 (ix2 j q) = _
  exact transpose_ix2_apply _ _ j q

/-- The running maxima strictly before each row: the cumulative maximum down the rows (a window of all rows up to the
    current one, padded above with `-∞`), its last row dropped and a row of zeros put on top. -/
def maxBefore (X : (⟨S8192x1024, .f32⟩ : BufTy).Contents (Elt Ideal)) : (⟨S8192x1024, .f32⟩ : BufTy).Contents (Elt Ideal) :=
  concatenate S8192x1024 0
    [⟨S1x1024, broadcastInDim S1x1024 ![] bcast_S_S1x1024 (constant (F := Ideal) S_ .f32 0x00000000#32)⟩,
     ⟨S8191x1024, extractStridedSlice S8191x1024 ![0, 0]
        (Host.reduceWindow (FloatOps.maximumf (F := Ideal) (φ := .f32)) ![8192, 1] ![1, 1] ![8191, 0] ![0, 0] X
          (broadcastInDim S_ ![] bcast_S_S_ (constant (F := Ideal) S_ .f32 0xFF800000#32))
          reduceWindows_S8192x1024_S8192x1024_w8192s1p8191_0_w1s1p0_0 h_S_)
        slices_S8192x1024_S8191x1024_0_0⟩]
    concatenates_S1x1024_S8191x1024_S8192x1024_d0

/-- The running maxima strictly after each row: the same cumulative maximum taken on the rows in reverse order and
    reversed back, its first row dropped and a row of zeros put at the bottom. -/
def maxAfter (X : (⟨S8192x1024, .f32⟩ : BufTy).Contents (Elt Ideal)) : (⟨S8192x1024, .f32⟩ : BufTy).Contents (Elt Ideal) :=
  concatenate S8192x1024 0
    [⟨S8191x1024, extractStridedSlice S8191x1024 ![1, 0]
        (Host.reverse [0]
          (Host.reduceWindow (FloatOps.maximumf (F := Ideal) (φ := .f32)) ![8192, 1] ![1, 1] ![8191, 0] ![0, 0] (Host.reverse [0] X)
            (broadcastInDim S_ ![] bcast_S_S_ (constant (F := Ideal) S_ .f32 0xFF800000#32))
            reduceWindows_S8192x1024_S8192x1024_w8192s1p8191_0_w1s1p0_0 h_S_))
        slices_S8192x1024_S8191x1024_1_0⟩,
     ⟨S1x1024, broadcastInDim S1x1024 ![] bcast_S_S1x1024 (constant (F := Ideal) S_ .f32 0x00000000#32)⟩]
    concatenates_S8191x1024_S1x1024_S8192x1024_d0

/-- The second operand of the first kernel holds the maxima before. -/
theorem v5_v3 (c : Dev nD) : V5 m ρ c main_v3 = maxBefore (m ((c : Thread nD τ).loc main_arg0)) := by
  show StableHlo.after hostOps0_4 (W4 m ρ c) (Proc.devRef .tc main_v3) = _
  simp only [hostOps0_4, hostOps0_3, hostOps0_2, hostOps0_1, hostOps0]
  after_results
  simp only [TRef.ofBuf_toBuf]
  simp only [TRef.toBuf, TRef.ofBuf, cast_eq]
  unfold maxBefore
  rfl

/-- The third operand of the first kernel holds the maxima after. -/
theorem v5_v8 (c : Dev nD) : V5 m ρ c main_v8 = maxAfter (m ((c : Thread nD τ).loc main_arg0)) := by
  show StableHlo.after hostOps0_4 (W4 m ρ c) (Proc.devRef .tc main_v8) = _
  simp only [hostOps0_4, hostOps0_3, hostOps0_2, hostOps0_1, hostOps0]
  after_results
  simp only [TRef.ofBuf_toBuf]
  simp only [TRef.toBuf, TRef.ofBuf, cast_eq]
  unfold maxAfter
  rfl

/-! ## At the second kernel's launch -/

/-- The hidden array is what the first kernel's write-backs left. -/
theorem v6_v25 (c : Dev nD) : V6 m ρ c main_v25 = (dat0 (V5 m ρ) c).arrAt 9 cfg0.N := W6_arr m ρ c 9

/-- The input `x`, an input array of the first kernel, is as the first kernel found it. -/
theorem v6_arg0 (c : Dev nD) : V6 m ρ c main_arg0 = V5 m ρ c main_arg0 :=
  (W6_arr m ρ c 0).trans (((dat0 (V5 m ρ) c).arrAt_in 0 rfl _).trans (A_eq0 (V5 m ρ) c 0))

/-- A buffer that is no array of the first kernel is as the first kernel found it. -/
theorem v6_v19 (c : Dev nD) : V6 m ρ c main_v19 = V5 m ρ c main_v19 := W6_of_ne m ρ c main_v19 (by decide)
theorem v6_v23 (c : Dev nD) : V6 m ρ c main_v23 = V5 m ρ c main_v23 := W6_of_ne m ρ c main_v23 (by decide)
theorem v6_v24 (c : Dev nD) : V6 m ρ c main_v24 = V5 m ρ c main_v24 := W6_of_ne m ρ c main_v24 (by decide)

end Cert.KernelIdeal.HostSide

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.Body0.lean ====
import proofs.«158192_j37830071943289_1_alg».proof.Proof.Gen.KernelIdeal.Frame
import proofs.«158192_j37830071943289_1_alg».proof.Proof.Spec
import proofs.«158192_j37830071943289_1_alg».proof.Proof.LibMatmulNN
import proofs.«158192_j37830071943289_1_alg».proof.Proof.LibLaneReduce
import proofs.«158192_j37830071943289_1_alg».proof.Proof.LibColumnLayout
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

/-!
# The first kernel's block

At one grid point the first kernel holds `256` rows of `x`, of the maxima before and of the maxima after, the three
`1024 × 4096` weight blocks, and the three `1 × 4096` rows (bias, layer-norm scale, layer-norm shift).  It accumulates
the three products into a scratch block, one after the other, adds the bias, clamps at zero, normalises each row and
stores the result.  Every intermediate passes through the scratch block: each is stored over the whole block and read
back whole, so what is read back is what was just stored, and the block that is finally stored is the composition of
the seven steps.

Read at row `p` and feature `j` on the extended reals, that composition is the hidden row of the specification
computed from row `p` of the three input blocks: each product is a plain sum over the `1024` contracted positions, the
two row reductions are sums over the `4096` features of row `p`, and every other step acts entry by entry.
-/

noncomputable section

open scoped BigOperators
open Idealize.ShloMosaic Idealize.ShloMosaic.TcCoe Idealize.SL.Sem
open Idealize.ShloMosaic.Pipeline (Dat)

namespace Cert.KernelIdeal.Body0

open Cert.KernelIdeal Cert.KernelIdeal.Gen Idealize.ShloMosaic.ValueIdx

/-- The zero offsets of a whole-block access. -/
theorem hz : (![0, 0] : Fin 2 → Nat) = fun _ => 0 := funext fun a => by fin_cases a <;> rfl

section AnyFloats

variable {F : FTy → Type} [FloatOps F]

/-- What the body leaves in the output's staging buffer is the composition of its seven steps over the nine input
    blocks: the one store covers the block, and every load of the scratch block reads back the store before it. -/
theorem out0_eq (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S1024x4096 .bf16) (h4 : a4.IsWhole) (a5 : Memref sig .tc .vmem S1024x4096 .bf16) (h5 : a5.IsWhole) (a6 : Memref sig .tc .vmem S1024x4096 .bf16) (h6 : a6.IsWhole) (a7 : Memref sig .tc .vmem S1x4096 .f32) (h7 : a7.IsWhole) (a8 : Memref sig .tc .vmem S1x4096 .f32) (h8 : a8.IsWhole) (a9 : Memref sig .tc .vmem S1x4096 .f32) (h9 : a9.IsWhole) (a10 : Memref sig .tc .vmem S256x4096 .bf16) (h10 : a10.IsWhole) (a11 : Memref sig .tc .vmem S256x4096 .f32) (h11 : a11.IsWhole)
    (x0 x1 x2 : Vec F S256x1024 .f32) (x3 x4 x5 : Vec F S1024x4096 .bf16) (x6 x7 x8 : Vec F S1x4096 .f32) :
    out0_A_9 c i a1 h1 a2 h2 a3 h3 a4 h4 a5 h5 a6 h6 a7 h7 a8 h8 a9 h9 a10 h10 a11 h11 x0 x1 x2 x3 x4 x5 x6 x7 x8
      = k0_pay1 (k0_pay7 (k0_pay6 (k0_pay5 (k0_pay4 (k0_pay3 (k0_pay2 x0 x3) x1 x4) x2 x5) x6)) x7) x8 := by
  unfold out0_A_9
  rw [View.read_writes_eq_canon _ _ _ (cover0_A_9 c i a1 h1 a2 h2 a3 h3 a4 h4 a5 h5 a6 h6 a7 h7 a8 h8 a9 h9 a10 h10 a11 h11 x0 x1 x2 x3 x4 x5 x6 x7 x8)]
  unfold kernelRun0_A
  dsimp only
  sl_unfold_words
  rw [View.canon_unit_zero (S := S256x4096) hz]
  simp only [View.readCov_cons_toLoadRect, View.readAt_eq_ld, h1.read_unread, h2.read_unread, h3.read_unread,
    h4.read_unread, h5.read_unread, h6.read_unread, h7.read_unread, h8.read_unread, h9.read_unread,
    View.ld_unit_zero (S := S256x1024) hz, View.ld_unit_zero (S := S1024x4096) hz, View.ld_unit_zero (S := S1x4096) hz]

end AnyFloats

/-! ## The seven steps at an entry, on the extended reals -/

/-- The first product: entry `(p, j)` is the sum over `k` of `x[p, k] · w[k, j]`. -/
theorem pay2_apply (x : Vec Ideal S256x1024 .f32) (w : Vec Ideal S1024x4096 .bf16) (p : Fin 256) (j : Fin 4096) :
    k0_pay2 (F := Ideal) x w (ix2 p j) = ∑ k : Fin 1024, x (ix2 p k) * w (ix2 k j) := by
  unfold k0_pay2
  simp only [shapeCast_self]
  exact LibMatmulNN.matmul_zero_apply 256 1024 4096 none _ _ p j

/-- The second product, added to what the scratch block holds. -/
theorem pay3_apply (acc : Vec Ideal S256x4096 .f32) (x : Vec Ideal S256x1024 .f32) (w : Vec Ideal S1024x4096 .bf16)
    (p : Fin 256) (j : Fin 4096) :
    k0_pay3 (F := Ideal) acc x w (ix2 p j) = acc (ix2 p j) + ∑ k : Fin 1024, x (ix2 p k) * w (ix2 k j) := by
  unfold k0_pay3
  simp only [shapeCast_self]
  exact congrArg (acc (ix2 p j) + ·) (LibMatmulNN.matmul_zero_apply 256 1024 4096 none _ _ p j)

/-- The third product, added likewise. -/
theorem pay4_apply (acc : Vec Ideal S256x4096 .f32) (x : Vec Ideal S256x1024 .f32) (w : Vec Ideal S1024x4096 .bf16)
    (p : Fin 256) (j : Fin 4096) :
    k0_pay4 (F := Ideal) acc x w (ix2 p j) = acc (ix2 p j) + ∑ k : Fin 1024, x (ix2 p k) * w (ix2 k j) := by
  unfold k0_pay4
  simp only [shapeCast_self]
  exact congrArg (acc (ix2 p j) + ·) (LibMatmulNN.matmul_zero_apply 256 1024 4096 none _ _ p j)

/-- The bias row added to every row. -/
theorem pay5_apply (acc : Vec Ideal S256x4096 .f32) (b : Vec Ideal S1x4096 .f32) (p : Fin 256) (j : Fin 4096) :
    k0_pay5 (F := Ideal) acc b (ix2 p j) = acc (ix2 p j) + b (ix2 (0 : Fin 1) j) := by
  unfold k0_pay5
  simp only [shapeCast_self]
  exact congrArg (acc (ix2 p j) + ·) (broadcastTo_1b_ab_apply b _ p j)

/-- The clamp at zero. -/
theorem pay6_apply (a : Vec Ideal S256x4096 .f32) (p : Fin 256) (j : Fin 4096) :
    k0_pay6 (F := Ideal) a (ix2 p j) = max (a (ix2 p j)) (Ideal.ofBits .f32 0x00000000#32) := by
  unfold k0_pay6
  simp only [shapeCast_self]
  rfl

/-- A row's sum over its `4096` features, kept as a column and divided by the float `4096.0`, is the row's mean. -/
theorem rowMean_apply (v : FVec Ideal S256x4096 .f32) (h : S256x4096.Reduces [1] S256) (hφ : FKind.Formats .f32)
    (hacc : (0x00000000#32 : BitVec 32) = 0x00000000#32) (hs : S256.ShapeCasts S256x1) (p : Fin 256) :
    divf (shapeCast S256x1 (multiReduction .add [1] S256 v 0x00000000#32 h hφ hacc) hs)
        (broadcast S256x1 (Scalar.ofBits .f32 0x45800000#32)) (ix2 p (0 : Fin 1))
      = Spec.mean (fun j' => v (ix2 p j')) := by
  show Ideal.div _ _ = Ideal.div _ _
  rw [LibLaneReduce.sumLanes_apply]
  rfl

/-- The layer norm without its shift: the row centred by its mean, divided by the square root of its variance plus the
    small constant, and scaled feature by feature. -/
theorem pay7_apply (a : Vec Ideal S256x4096 .f32) (lnw : Vec Ideal S1x4096 .f32) (p : Fin 256) (j : Fin 4096) :
    k0_pay7 (F := Ideal) a lnw (ix2 p j)
      = (a (ix2 p j) - Spec.mean (fun j' => a (ix2 p j')))
          * Ideal.rsqrt (Spec.mean (fun j' => (a (ix2 p j') - Spec.mean (fun j'' => a (ix2 p j'')))
              * (a (ix2 p j') - Spec.mean (fun j'' => a (ix2 p j'')))) + Ideal.ofBits .f32 0x358637BD#32)
          * lnw (ix2 (0 : Fin 1) j) := by
  unfold k0_pay7
  simp only [shapeCast_self, mulf_apply, subf_apply, broadcastTo_a1_ab_apply, broadcastTo_1b_ab_apply]
  refine congrArg₂ (· * ·) (congrArg₂ (· * ·) (congrArg (a (ix2 p j) - ·) (rowMean_apply a _ _ _ _ p)) ?_) rfl
  show Ideal.rsqrt (_ + Ideal.ofBits .f32 0x358637BD#32) = _
  refine congrArg (fun z => Ideal.rsqrt (z + Ideal.ofBits .f32 0x358637BD#32)) ((rowMean_apply _ _ _ _ _ p).trans ?_)
  refine congrArg Spec.mean (funext fun j' => ?_)
  rw [mulf_apply, subf_apply, broadcastTo_a1_ab_apply, rowMean_apply]

/-- The layer norm's shift row added to every row; the change of float format that follows is the identity. -/
theorem pay1_apply (v : FVec Ideal S256x4096 .f32) (lnb : Vec Ideal S1x4096 .f32) (p : Fin 256) (j : Fin 4096) :
    k0_pay1 (F := Ideal) v lnb (ix2 p j) = v (ix2 p j) + lnb (ix2 (0 : Fin 1) j) := by
  unfold k0_pay1
  simp only [shapeCast_self]
  exact congrArg (v (ix2 p j) + ·) (broadcastTo_1b_ab_apply lnb _ p j)

/-- The stored block at row `p` and feature `j` is the specification's hidden row of row `p` of the three input
    blocks, against the three weight blocks and the three rows. -/
theorem block_apply (x0 x1 x2 : Vec Ideal S256x1024 .f32) (x3 x4 x5 : Vec Ideal S1024x4096 .bf16)
    (x6 x7 x8 : Vec Ideal S1x4096 .f32) (p : Fin 256) (j : Fin 4096) :
    k0_pay1 (F := Ideal) (k0_pay7 (k0_pay6 (k0_pay5 (k0_pay4 (k0_pay3 (k0_pay2 x0 x3) x1 x4) x2 x5) x6)) x7) x8 (ix2 p j)
      = Spec.hidden (fun k => x0 (ix2 p k)) (fun k => x1 (ix2 p k)) (fun k => x2 (ix2 p k))
          (fun k j' => x3 (ix2 k j')) (fun k j' => x4 (ix2 k j')) (fun k j' => x5 (ix2 k j'))
          (fun j' => x6 (ix2 (0 : Fin 1) j')) (fun j' => x7 (ix2 (0 : Fin 1) j')) (fun j' => x8 (ix2 (0 : Fin 1) j')) j := by
  have hact : ∀ j' : Fin 4096,
      k0_pay6 (F := Ideal) (k0_pay5 (k0_pay4 (k0_pay3 (k0_pay2 x0 x3) x1 x4) x2 x5) x6) (ix2 p j')
        = max (Spec.pre (fun k => x0 (ix2 p k)) (fun k => x1 (ix2 p k)) (fun k => x2 (ix2 p k))
            (fun k j'' => x3 (ix2 k j'')) (fun k j'' => x4 (ix2 k j'')) (fun k j'' => x5 (ix2 k j''))
            (fun j'' => x6 (ix2 (0 : Fin 1) j'')) j') (Ideal.ofBits .f32 0x00000000#32) := fun j' => by
    rw [pay6_apply, pay5_apply, pay4_apply, pay3_apply, pay2_apply]
    rfl
  rw [pay1_apply, pay7_apply]
  simp only [hact]
  rfl

end Cert.KernelIdeal.Body0

end
-- ==== Proof.Array0.lean ====
import proofs.«158192_j37830071943289_1_alg».proof.Proof.Body0

/-!
# The hidden array

The first kernel's grid has `32` points; point `t` holds rows `256 t … 256 t + 255` of `x`, of the maxima before and of the
maxima after, and the whole of every other operand, and writes back rows `256 t … 256 t + 255` of the hidden array.  A row
of a block is the row of the array at `256 t` plus its position in the block, and the hidden row depends on that one row
only; so every written block is the restriction of ONE function of the arrays the region finds — the specification's
hidden row of each array row — and the `32` blocks cover the `8192` rows (row `r` lies in block `r / 256`).
-/

noncomputable section

open scoped BigOperators
open Idealize.ShloMosaic Idealize.ShloMosaic.TcCoe Idealize.SL.Sem
open Idealize.ShloMosaic.Pipeline (Dat)

namespace Cert.KernelIdeal.Array0

open Cert.KernelIdeal Cert.KernelIdeal.Gen Idealize.ShloMosaic.ValueIdx

variable (V : (c : Dev nD) → (b : Ref sig .tc) → Buf (Elt Ideal) ((c : Thread nD τ).loc b))

/-- The hidden row `r` at feature `j`, from the arrays as the first region finds them. -/
def hiddenAt (c : Dev nD) (r : Fin 8192) (j : Fin 4096) : EReal :=
  Spec.hidden (fun k => V c main_arg0 (ix2 r k)) (fun k => V c main_v3 (ix2 r k)) (fun k => V c main_v8 (ix2 r k))
    (fun k j' => V c main_v13 (ix2 k j')) (fun k j' => V c main_v15 (ix2 k j')) (fun k j' => V c main_v17 (ix2 k j'))
    (fun j' => V c main_v20 (ix2 (0 : Fin 1) j')) (fun j' => V c main_v21 (ix2 (0 : Fin 1) j'))
    (fun j' => V c main_v22 (ix2 (0 : Fin 1) j')) j

/-- The hidden array. -/
def hiddenArr (c : Dev nD) : Buf (Elt Ideal) ((c : Thread nD τ).loc main_v25) := fun i => hiddenAt V c (i 0) (i 1)

/-- The block a point stores, at an entry, from blocks whose rows are rows of arrays `X`, `B`, `A`: stated over plain
    blocks and arrays, so that it can be used at any point's blocks. -/
theorem point (x0 x1 x2 : Vec Ideal S256x1024 .f32) (x3 x4 x5 : Vec Ideal S1024x4096 .bf16)
    (x6 x7 x8 : Vec Ideal S1x4096 .f32) (X B A : S8192x1024.Idx → EReal) (y : S256x4096.Idx) (r : Fin 8192) (j : Fin 4096)
    (hj : (y 1).val = j.val)
    (h0 : ∀ (p : Fin 256) (k : Fin 1024), p.val = (y 0).val → x0 (ix2 p k) = X (ix2 r k))
    (h1 : ∀ (p : Fin 256) (k : Fin 1024), p.val = (y 0).val → x1 (ix2 p k) = B (ix2 r k))
    (h2 : ∀ (p : Fin 256) (k : Fin 1024), p.val = (y 0).val → x2 (ix2 p k) = A (ix2 r k)) :
    k0_pay1 (F := Ideal) (k0_pay7 (k0_pay6 (k0_pay5 (k0_pay4 (k0_pay3 (k0_pay2 x0 x3) x1 x4) x2 x5) x6)) x7) x8 y
      = Spec.hidden (fun k => X (ix2 r k)) (fun k => B (ix2 r k)) (fun k => A (ix2 r k))
          (fun k j' => x3 (ix2 k j')) (fun k j' => x4 (ix2 k j')) (fun k j' => x5 (ix2 k j'))
          (fun j' => x6 (ix2 (0 : Fin 1) j')) (fun j' => x7 (ix2 (0 : Fin 1) j')) (fun j' => x8 (ix2 (0 : Fin 1) j')) j := by
  obtain ⟨p, q, rfl⟩ : ∃ (p : Fin 256) (q : Fin 4096), y = ix2 p q := ⟨y 0, y 1, eq_ix2 y⟩
  obtain rfl : q = j := Fin.ext hj
  rw [Body0.block_apply]
  have e0 : (fun k => x0 (ix2 p k)) = fun k => X (ix2 r k) := funext fun k => h0 p k rfl
  have e1 : (fun k => x1 (ix2 p k)) = fun k => B (ix2 r k) := funext fun k => h1 p k rfl
  have e2 : (fun k => x2 (ix2 p k)) = fun k => A (ix2 r k) := funext fun k => h2 p k rfl
  rw [e0, e1, e2]

/-- The printed index maps, decided over the grid: the three row windows move with the output window, every other
    window stays at block `(0, 0)`, and the output's row-block index stays below `32`. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (1 : Fin 2) = 0 ∧ win0_9.index t (0 : Fin 2) ≤ 31 :=
  (by decide +kernel : ∀ t : Fin grid0.N, _)

/-- Every row block of the hidden array is some point's. -/
theorem idx_onto : ∀ q0 : Fin 32, ∃ t : Fin cfg0.N, win0_9.index t = ![q0.val, 0] :=
  (by decide +kernel : ∀ q0 : Fin 32, ∃ t : Fin grid0.N, win0_9.index t = ![q0.val, 0])

/-- What point `t` writes back is block `t` of the hidden array. -/
theorem flushed_eq (c : Dev nD) (t : Fin cfg0.N) :
    (dat0 V c).flushed 9 t = ((cfg0.win 9).blk t).view.read (Elt Ideal) (hiddenArr V c) := by
  show (cfg0.win 9).cut (grid0.coords t) ((dat0 V c).after 9 t) = _
  rw [after0_9]
  unfold outsAt0
  rw [Body0.out0_eq]
  obtain ⟨e00, e01, e10, e11, e20, e21, e30, e31, e40, e41, e50, e51, e60, e61, e70, e71, e80, e81, e91, e9⟩ := idx_facts t
  funext y
  have hy0 : (y 0).val < 256 := (y 0).isLt
  have hy1 : (y 1).val < 4096 := (y 1).isLt
  refine (point (iblk0 V c 0 t) (iblk0 V c 1 t) (iblk0 V c 2 t) (iblk0 V c 3 t) (iblk0 V c 4 t) (iblk0 V c 5 t) (iblk0 V c 6 t) (iblk0 V c 7 t) (iblk0 V c 8 t)
    (V c main_arg0) (V c main_v3) (V c main_v8) y ((((cfg0.win 9).blk t).view.emb y) 0) ((((cfg0.win 9).blk t).view.emb y) 1)
    ?_ ?_ ?_ ?_).trans ?_
  · show (y 1).val = win0_9.index t (1 : Fin 2) * 4096 + 1 * (y 1).val
    omega
  · intro p k hp
    show V c main_arg0 (((cfg0.win 0).blk t).view.emb (ix2 p k)) = V c main_arg0 _
    refine congrArg (V c main_arg0) (funext fun a => Fin.ext ?_)
    match a with
    | ⟨0, _⟩ => show win0_0.index t (0 : Fin 2) * 256 + 1 * p.val = win0_9.index t (0 : Fin 2) * 256 + 1 * (y 0).val; omega
    | ⟨1, _⟩ => show win0_0.index t (1 : Fin 2) * 1024 + 1 * k.val = k.val; omega
  · intro p k hp
    show V c main_v3 (((cfg0.win 1).blk t).view.emb (ix2 p k)) = V c main_v3 _
    refine congrArg (V c main_v3) (funext fun a => Fin.ext ?_)
    match a with
    | ⟨0, _⟩ => show win0_1.index t (0 : Fin 2) * 256 + 1 * p.val = win0_9.index t (0 : Fin 2) * 256 + 1 * (y 0).val; omega
    | ⟨1, _⟩ => show win0_1.index t (1 : Fin 2) * 1024 + 1 * k.val = k.val; omega
  · intro p k hp
    show V c main_v8 (((cfg0.win 2).blk t).view.emb (ix2 p k)) = V c main_v8 _
    refine congrArg (V c main_v8) (funext fun a => Fin.ext ?_)
    match a with
    | ⟨0, _⟩ => show win0_2.index t (0 : Fin 2) * 256 + 1 * p.val = win0_9.index t (0 : Fin 2) * 256 + 1 * (y 0).val; omega
    | ⟨1, _⟩ => show win0_2.index t (1 : Fin 2) * 1024 + 1 * k.val = k.val; omega
  ·
    have w3 : (fun (k : Fin 1024) (j' : Fin 4096) => iblk0 V c 3 t (ix2 k j')) = fun k j' => V c main_v13 (ix2 k j') :=
      funext fun k => funext fun j' => by
        show V c main_v13 (((cfg0.win 3).blk t).view.emb (ix2 k j')) = V c main_v13 (ix2 k j')
        refine congrArg (V c main_v13) (funext fun a => Fin.ext ?_)
        match a with
        | ⟨0, _⟩ => show win0_3.index t (0 : Fin 2) * 1024 + 1 * k.val = k.val; omega
        | ⟨1, _⟩ => show win0_3.index t (1 : Fin 2) * 4096 + 1 * j'.val = j'.val; omega
    have w4 : (fun (k : Fin 1024) (j' : Fin 4096) => iblk0 V c 4 t (ix2 k j')) = fun k j' => V c main_v15 (ix2 k j') :=
      funext fun k => funext fun j' => by
        show V c main_v15 (((cfg0.win 4).blk t).view.emb (ix2 k j')) = V c main_v15 (ix2 k j')
        refine congrArg (V c main_v15) (funext fun a => Fin.ext ?_)
        match a with
        | ⟨0, _⟩ => show win0_4.index t (0 : Fin 2) * 1024 + 1 * k.val = k.val; omega
        | ⟨1, _⟩ => show win0_4.index t (1 : Fin 2) * 4096 + 1 * j'.val = j'.val; omega
    have w5 : (fun (k : Fin 1024) (j' : Fin 4096) => iblk0 V c 5 t (ix2 k j')) = fun k j' => V c main_v17 (ix2 k j') :=
      funext fun k => funext fun j' => by
        show V c main_v17 (((cfg0.win 5).blk t).view.emb (ix2 k j')) = V c main_v17 (ix2 k j')
        refine congrArg (V c main_v17) (funext fun a => Fin.ext ?_)
        match a with
        | ⟨0, _⟩ => show win0_5.index t (0 : Fin 2) * 1024 + 1 * k.val = k.val; omega
        | ⟨1, _⟩ => show win0_5.index t (1 : Fin 2) * 4096 + 1 * j'.val = j'.val; omega
    have w6 : (fun (j' : Fin 4096) => iblk0 V c 6 t (ix2 (0 : Fin 1) j')) = fun j' => V c main_v20 (ix2 (0 : Fin 1) j') :=
      funext fun j' => by
        show V c main_v20 (((cfg0.win 6).blk t).view.emb (ix2 (0 : Fin 1) j')) = V c main_v20 (ix2 (0 : Fin 1) j')
        refine congrArg (V c main_v20) (funext fun a => Fin.ext ?_)
        match a with
        | ⟨0, _⟩ => show win0_6.index t (0 : Fin 2) * 1 + 1 * 0 = 0; omega
        | ⟨1, _⟩ => show win0_6.index t (1 : Fin 2) * 4096 + 1 * j'.val = j'.val; omega
    have w7 : (fun (j' : Fin 4096) => iblk0 V c 7 t (ix2 (0 : Fin 1) j')) = fun j' => V c main_v21 (ix2 (0 : Fin 1) j') :=
      funext fun j' => by
        show V c main_v21 (((cfg0.win 7).blk t).view.emb (ix2 (0 : Fin 1) j')) = V c main_v21 (ix2 (0 : Fin 1) j')
        refine congrArg (V c main_v21) (funext fun a => Fin.ext ?_)
        match a with
        | ⟨0, _⟩ => show win0_7.index t (0 : Fin 2) * 1 + 1 * 0 = 0; omega
        | ⟨1, _⟩ => show win0_7.index t (1 : Fin 2) * 4096 + 1 * j'.val = j'.val; omega
    have w8 : (fun (j' : Fin 4096) => iblk0 V c 8 t (ix2 (0 : Fin 1) j')) = fun j' => V c main_v22 (ix2 (0 : Fin 1) j') :=
      funext fun j' => by
        show V c main_v22 (((cfg0.win 8).blk t).view.emb (ix2 (0 : Fin 1) j')) = V c main_v22 (ix2 (0 : Fin 1) j')
        refine congrArg (V c main_v22) (funext fun a => Fin.ext ?_)
        match a with
        | ⟨0, _⟩ => show win0_8.index t (0 : Fin 2) * 1 + 1 * 0 = 0; omega
        | ⟨1, _⟩ => show win0_8.index t (1 : Fin 2) * 4096 + 1 * j'.val = j'.val; omega
    rw [w3, w4, w5, w6, w7, w8]
    rfl

/-- An index of the hidden array lies in point `t`'s block iff each coordinate lies in the block's range on its axis. -/
theorem mem_blk (t : Fin cfg0.N) (i : S8192x4096.Idx) :
    i ∈ ((cfg0.win 9).blk t).view.set ↔ ∀ a : Fin 2, win0_9.index t a * S256x4096.size a ≤ (i a).val
      ∧ (i a).val < win0_9.index t a * S256x4096.size a + S256x4096.size a := by
  show i ∈ ((View.whole main_v25).slice (win0_9.rect t)).set ↔ _
  rw [View.set_slice_whole, Rect.mem_set_unit]
  exact Iff.rfl

/-- Every index of the hidden array lies in some point's block: row `r` in the block of point `r / 256`. -/
theorem cover (i : S8192x4096.Idx) :
    ∃ t : Fin cfg0.N, (cfg0.win 9).flush t = true ∧ i ∈ ((cfg0.win 9).blk t).view.set := by
  have hi0 : (i 0).val < 8192 := (i 0).isLt
  have hi1 : (i 1).val < 4096 := (i 1).isLt
  obtain ⟨t, ht⟩ := idx_onto ⟨(i 0).val / 256, by omega⟩
  have q0 : win0_9.index t (0 : Fin 2) = (i 0).val / 256 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 4096 ≤ (i 1).val ∧ (i 1).val < win0_9.index t (1 : Fin 2) * 4096 + 4096; omega

/-- After the first region the hidden array holds the hidden row of every row. -/
theorem final (c : Dev nD) : (dat0 V c).arrAt 9 cfg0.N = hiddenArr V c :=
  (dat0 V c).arrAt_eq_of_cover 9 (hiddenArr V c) (fun t _ => flushed_eq V c t) cover

end Cert.KernelIdeal.Array0

end
-- ==== Proof.Body1.lean ====
import proofs.«158192_j37830071943289_1_alg».proof.Proof.Gen.KernelIdeal.Frame
import proofs.«158192_j37830071943289_1_alg».proof.Proof.Spec
import proofs.«158192_j37830071943289_1_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

/-!
# The second kernel's block

At one grid point the second kernel holds `512` hidden rows, the matching `512` rows of `x`, the whole `4096 × 1024`
weight block and the two `1 × 1024` rows (bias and scale).  Its one store is the product of the hidden rows with the
weights, plus the bias row, times the scale row, plus the rows of `x`.  Read at row `p` and column `q` on the extended
reals, that is the specification's output row computed from hidden row `p` and row `p` of `x`.
-/

noncomputable section

open scoped BigOperators
open Idealize.ShloMosaic Idealize.ShloMosaic.TcCoe Idealize.SL.Sem

namespace Cert.KernelIdeal.Body1

open Cert.KernelIdeal Cert.KernelIdeal.Gen Idealize.ShloMosaic.ValueIdx

/-- The zero offsets of a whole-block access. -/
theorem hz : (![0, 0] : Fin 2 → Nat) = fun _ => 0 := funext fun a => by fin_cases a <;> rfl

/-- What the body leaves in the output's staging buffer: its one store covers the block, and each load reads a whole
    input block. -/
theorem out1_eq {F : FTy → Type} [FloatOps F] (x0 : Vec F S512x4096 .bf16) (x1 : Vec F S512x1024 .f32)
    (x2 : Vec F S4096x1024 .bf16) (x3 x4 : Vec F S1x1024 .f32) :
    out1_5 x0 x1 x2 x3 x4 = k1_pay1 x0 x2 x3 x4 x1 := by
  unfold out1_5
  rw [View.canon_unit_zero (S := S512x1024) hz]
  simp only [View.ld_unit_zero (S := S512x4096) hz, View.ld_unit_zero (S := S4096x1024) hz,
    View.ld_unit_zero (S := S1x1024) hz, View.ld_unit_zero (S := S512x1024) hz]

/-- The stored block at row `p` and column `q`: the sum over the `4096` hidden features of `h[p, j] · w[j, q]`, plus
    the bias, times the scale, plus `x[p, q]`. -/
theorem block_apply (h : Vec Ideal S512x4096 .bf16) (w : Vec Ideal S4096x1024 .bf16) (b2 g : Vec Ideal S1x1024 .f32)
    (x : Vec Ideal S512x1024 .f32) (p : Fin 512) (q : Fin 1024) :
    k1_pay1 (F := Ideal) h w b2 g x (ix2 p q)
      = Spec.out (fun j => h (ix2 p j)) (fun j q' => w (ix2 j q')) (fun q' => b2 (ix2 (0 : Fin 1) q'))
          (fun q' => g (ix2 (0 : Fin 1) q')) (fun k => x (ix2 p k)) q := by
  unfold k1_pay1
  simp only [shapeCast_self]
  show (_ + _) * _ + _ = (_ + _) * _ + _
  exact congrArg₂ (· + ·) (congrArg₂ (· * ·) (congrArg₂ (· + ·)
    (LibMatmulNN.matmul_zero_apply 512 4096 1024 none _ _ p q) (broadcastTo_1b_ab_apply b2 _ p q))
    (broadcastTo_1b_ab_apply g _ p q)) rfl

end Cert.KernelIdeal.Body1

end
-- ==== Proof.Array1.lean ====
import proofs.«158192_j37830071943289_1_alg».proof.Proof.Body1

/-!
# The result array

The second kernel's grid has `16` points; point `t` holds rows `512 t … 512 t + 511` of the hidden array and of `x`, and
the whole of the weights, the bias row and the scale row, and writes back rows `512 t … 512 t + 511` of the result.  Every
written block is the restriction of ONE function of the arrays the region finds — the specification's output row of
each hidden row and `x` row — and the `16` blocks cover the `8192` rows (row `r` lies in block `r / 512`).
-/

noncomputable section

open scoped BigOperators
open Idealize.ShloMosaic Idealize.ShloMosaic.TcCoe Idealize.SL.Sem
open Idealize.ShloMosaic.Pipeline (Dat)

namespace Cert.KernelIdeal.Array1

open Cert.KernelIdeal Cert.KernelIdeal.Gen Idealize.ShloMosaic.ValueIdx

variable (V : (c : Dev nD) → (b : Ref sig .tc) → Buf (Elt Ideal) ((c : Thread nD τ).loc b))

/-- The result's row `r` at column `q`, from the arrays as the second region finds them. -/
def outAt (c : Dev nD) (r : Fin 8192) (q : Fin 1024) : EReal :=
  Spec.out (fun j => V c main_v25 (ix2 r j)) (fun j q' => V c main_v19 (ix2 j q'))
    (fun q' => V c main_v23 (ix2 (0 : Fin 1) q')) (fun q' => V c main_v24 (ix2 (0 : Fin 1) q'))
    (fun k => V c main_arg0 (ix2 r k)) q

/-- The result array. -/
def outArr (c : Dev nD) : Buf (Elt Ideal) ((c : Thread nD τ).loc main_v26) := fun i => outAt V c (i 0) (i 1)

/-- The block a point stores, at an entry, from blocks whose rows are rows of arrays `Hh` and `X`: stated over plain
    blocks and arrays, so that it can be used at any point's blocks. -/
theorem point (x0 : Vec Ideal S512x4096 .bf16) (x1 : Vec Ideal S512x1024 .f32) (x2 : Vec Ideal S4096x1024 .bf16)
    (x3 x4 : Vec Ideal S1x1024 .f32) (Hh : S8192x4096.Idx → EReal) (X : S8192x1024.Idx → EReal)
    (y : S512x1024.Idx) (r : Fin 8192) (q : Fin 1024) (hq : (y 1).val = q.val)
    (h0 : ∀ (p : Fin 512) (j : Fin 4096), p.val = (y 0).val → x0 (ix2 p j) = Hh (ix2 r j))
    (h1 : ∀ (p : Fin 512) (k : Fin 1024), p.val = (y 0).val → x1 (ix2 p k) = X (ix2 r k)) :
    k1_pay1 (F := Ideal) x0 x2 x3 x4 x1 y
      = Spec.out (fun j => Hh (ix2 r j)) (fun j q' => x2 (ix2 j q')) (fun q' => x3 (ix2 (0 : Fin 1) q'))
          (fun q' => x4 (ix2 (0 : Fin 1) q')) (fun k => X (ix2 r k)) q := by
  obtain ⟨p, q0, rfl⟩ : ∃ (p : Fin 512) (q0 : Fin 1024), y = ix2 p q0 := ⟨y 0, y 1, eq_ix2 y⟩
  obtain rfl : q0 = q := Fin.ext hq
  rw [Body1.block_apply]
  have e0 : (fun j => x0 (ix2 p j)) = fun j => Hh (ix2 r j) := funext fun j => h0 p j rfl
  have e1 : (fun k => x1 (ix2 p k)) = fun k => X (ix2 r k) := funext fun k => h1 p k rfl
  rw [e0, e1]

/-- The printed index maps, decided over the grid: the two row windows move with the output window, every other
    window stays at block `(0, 0)`, and the output's row-block index stays below `16`. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 15 :=
  (by decide +kernel : ∀ t : Fin grid1.N, _)

/-- Every row block of the result is some point's. -/
theorem idx_onto : ∀ q0 : Fin 16, ∃ t : Fin cfg1.N, win1_5.index t = ![q0.val, 0] :=
  (by decide +kernel : ∀ q0 : Fin 16, ∃ t : Fin grid1.N, win1_5.index t = ![q0.val, 0])

/-- What point `t` writes back is block `t` of the result array. -/
theorem flushed_eq (c : Dev nD) (t : Fin cfg1.N) :
    (dat1 V c).flushed 5 t = ((cfg1.win 5).blk t).view.read (Elt Ideal) (outArr V c) := by
  show (cfg1.win 5).cut (grid1.coords t) ((dat1 V c).after 5 t) = _
  rw [after1_5, Body1.out1_eq]
  obtain ⟨e00, e01, e10, e11, e20, e21, e30, e31, e40, e41, e51, e5⟩ := idx_facts t
  funext y
  have hy0 : (y 0).val < 512 := (y 0).isLt
  have hy1 : (y 1).val < 1024 := (y 1).isLt
  refine (point (iblk1 V c 0 t) (iblk1 V c 1 t) (iblk1 V c 2 t) (iblk1 V c 3 t) (iblk1 V c 4 t)
    (V c main_v25) (V c main_arg0) y ((((cfg1.win 5).blk t).view.emb y) 0) ((((cfg1.win 5).blk t).view.emb y) 1)
    ?_ ?_ ?_).trans ?_
  · show (y 1).val = win1_5.index t (1 : Fin 2) * 1024 + 1 * (y 1).val
    omega
  · intro p j hp
    show V c main_v25 (((cfg1.win 0).blk t).view.emb (ix2 p j)) = V c main_v25 _
    refine congrArg (V c main_v25) (funext fun a => Fin.ext ?_)
    match a with
    | ⟨0, _⟩ => show win1_0.index t (0 : Fin 2) * 512 + 1 * p.val = win1_5.index t (0 : Fin 2) * 512 + 1 * (y 0).val; omega
    | ⟨1, _⟩ => show win1_0.index t (1 : Fin 2) * 4096 + 1 * j.val = j.val; omega
  · intro p k hp
    show V c main_arg0 (((cfg1.win 1).blk t).view.emb (ix2 p k)) = V c main_arg0 _
    refine congrArg (V c main_arg0) (funext fun a => Fin.ext ?_)
    match a with
    | ⟨0, _⟩ => show win1_1.index t (0 : Fin 2) * 512 + 1 * p.val = win1_5.index t (0 : Fin 2) * 512 + 1 * (y 0).val; omega
    | ⟨1, _⟩ => show win1_1.index t (1 : Fin 2) * 1024 + 1 * k.val = k.val; omega
  · have w2 : (fun (j : Fin 4096) (q' : Fin 1024) => iblk1 V c 2 t (ix2 j q')) = fun j q' => V c main_v19 (ix2 j q') :=
      funext fun j => funext fun q' => by
        show V c main_v19 (((cfg1.win 2).blk t).view.emb (ix2 j q')) = V c main_v19 (ix2 j q')
        refine congrArg (V c main_v19) (funext fun a => Fin.ext ?_)
        match a with
        | ⟨0, _⟩ => show win1_2.index t (0 : Fin 2) * 4096 + 1 * j.val = j.val; omega
        | ⟨1, _⟩ => show win1_2.index t (1 : Fin 2) * 1024 + 1 * q'.val = q'.val; omega
    have w3 : (fun (q' : Fin 1024) => iblk1 V c 3 t (ix2 (0 : Fin 1) q')) = fun q' => V c main_v23 (ix2 (0 : Fin 1) q') :=
      funext fun q' => by
        show V c main_v23 (((cfg1.win 3).blk t).view.emb (ix2 (0 : Fin 1) q')) = V c main_v23 (ix2 (0 : Fin 1) q')
        refine congrArg (V c main_v23) (funext fun a => Fin.ext ?_)
        match a with
        | ⟨0, _⟩ => show win1_3.index t (0 : Fin 2) * 1 + 1 * 0 = 0; omega
        | ⟨1, _⟩ => show win1_3.index t (1 : Fin 2) * 1024 + 1 * q'.val = q'.val; omega
    have w4 : (fun (q' : Fin 1024) => iblk1 V c 4 t (ix2 (0 : Fin 1) q')) = fun q' => V c main_v24 (ix2 (0 : Fin 1) q') :=
      funext fun q' => by
        show V c main_v24 (((cfg1.win 4).blk t).view.emb (ix2 (0 : Fin 1) q')) = V c main_v24 (ix2 (0 : Fin 1) q')
        refine congrArg (V c main_v24) (funext fun a => Fin.ext ?_)
        match a with
        | ⟨0, _⟩ => show win1_4.index t (0 : Fin 2) * 1 + 1 * 0 = 0; omega
        | ⟨1, _⟩ => show win1_4.index t (1 : Fin 2) * 1024 + 1 * q'.val = q'.val; omega
    rw [w2, w3, w4]
    rfl

/-- An index of the result lies in point `t`'s block iff each coordinate lies in the block's range on its axis. -/
theorem mem_blk (t : Fin cfg1.N) (i : S8192x1024.Idx) :
    i ∈ ((cfg1.win 5).blk t).view.set ↔ ∀ a : Fin 2, win1_5.index t a * S512x1024.size a ≤ (i a).val
      ∧ (i a).val < win1_5.index t a * S512x1024.size a + S512x1024.size a := by
  show i ∈ ((View.whole main_v26).slice (win1_5.rect t)).set ↔ _
  rw [View.set_slice_whole, Rect.mem_set_unit]
  exact Iff.rfl

/-- Every index of the result lies in some point's block: row `r` in the block of point `r / 512`. -/
theorem cover (i : S8192x1024.Idx) :
    ∃ t : Fin cfg1.N, (cfg1.win 5).flush t = true ∧ i ∈ ((cfg1.win 5).blk t).view.set := by
  have hi0 : (i 0).val < 8192 := (i 0).isLt
  have hi1 : (i 1).val < 1024 := (i 1).isLt
  obtain ⟨t, ht⟩ := idx_onto ⟨(i 0).val / 512, by omega⟩
  have q0 : win1_5.index t (0 : Fin 2) = (i 0).val / 512 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 1024 ≤ (i 1).val ∧ (i 1).val < win1_5.index t (1 : Fin 2) * 1024 + 1024; omega

/-- After the second region the result array holds the output row of every row. -/
theorem final (c : Dev nD) : (dat1 V c).arrAt 5 cfg1.N = outArr V c :=
  (dat1 V c).arrAt_eq_of_cover 5 (outArr V c) (fun t _ => flushed_eq V c t) cover

end Cert.KernelIdeal.Array1

end
-- ==== Proof.KernelRun.lean ====
import proofs.«158192_j37830071943289_1_alg».proof.Proof.Gen.KernelIdeal.Frame

/-!
# The kernel program's run, with its result named

Every weakly fair execution of the kernel program ends with every unscoped buffer at the contents the fold through its
host operations and its two regions gives it.  Read at the result's buffer that is the second region's output array
after its last write-back; read at an argument's buffer it is the argument as launched.
-/

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result's buffer ends at the last boundary's contents, every argument as launched. -/
theorem run_named : θ_run defs (onTc (τ := τ) (main (F := F))) ⟨m, fun _ => 0, ρ⟩ (fun r => ∀ c : Dev nD,
      r.2.mem ((c.tc : Thread nD τ).loc main_v26) = W7 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v26 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Named

end
-- ==== Proof.KernelValue.lean ====
import proofs.«158192_j37830071943289_1_alg».proof.Proof.HostSide
import proofs.«158192_j37830071943289_1_alg».proof.Proof.Array0
import proofs.«158192_j37830071943289_1_alg».proof.Proof.Array1
import proofs.«158192_j37830071943289_1_alg».proof.Proof.KernelRun

/-!
# The kernel program's result

The result's buffer ends at the second kernel's output array; that array is the output row of every hidden row and
`x` row the second kernel finds; the hidden array it finds is the first kernel's, the hidden row of every row of the
three row operands against the weight and row operands the first kernel finds; and each operand, read at an entry, is
an entry of an argument array or of the two arrays of running maxima.  Put together, the result is the
specification's function of the argument arrays.
-/

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Cert.KernelIdeal.HostSide

variable (m : (ℓ : Loc nD τ sig) → Buf (Elt Ideal) ℓ) (ρ : Dev nD → PrngReg)

/-- What the program computes, on core `c`, from the launch memory. -/
def result (c : Dev nD) : Buf (Elt Ideal) ((c.tc : Thread nD τ).loc main_v26) :=
  Spec.result (m ((c : Thread nD τ).loc main_arg0)) (maxBefore (m ((c : Thread nD τ).loc main_arg0))) (maxAfter (m ((c : Thread nD τ).loc main_arg0)))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The hidden array the second kernel finds, at row `r`: the specification's hidden row. -/
theorem hidden_row (c : Dev nD) (r : Fin 8192) :
    (fun j => V6 m ρ c main_v25 (ix2 r j))
      = Spec.hidden (fun k => (m ((c : Thread nD τ).loc main_arg0)) (ix2 r k)) (fun k => maxBefore (m ((c : Thread nD τ).loc main_arg0)) (ix2 r k))
          (fun k => maxAfter (m ((c : Thread nD τ).loc main_arg0)) (ix2 r k))
          (fun k j => (m ((c : Thread nD τ).loc main_arg1)) (ix2 j (Spec.colX k))) (fun k j => (m ((c : Thread nD τ).loc main_arg1)) (ix2 j (Spec.colB k)))
          (fun k j => (m ((c : Thread nD τ).loc main_arg1)) (ix2 j (Spec.colA k)))
          (fun j => (m ((c : Thread nD τ).loc main_arg2)) (ix1 j)) (fun j => (m ((c : Thread nD τ).loc main_arg3)) (ix1 j)) (fun j => (m ((c : Thread nD τ).loc main_arg4)) (ix1 j)) := by
  funext j
  show V6 m ρ c main_v25 (ix2 r j) = _
  rw [(v6_v25 m ρ c).trans (Array0.final (V5 m ρ) c)]
  show Array0.hiddenAt (V5 m ρ) c r j = _
  unfold Array0.hiddenAt
  have e0 : (fun (k : Fin 1024) => V5 m ρ c main_arg0 (ix2 r k)) = fun k => (m ((c : Thread nD τ).loc main_arg0)) (ix2 r k) :=
    funext fun k => congrFun (v5_arg0 m ρ c) _
  have e1 : (fun (k : Fin 1024) => V5 m ρ c main_v3 (ix2 r k)) = fun k => maxBefore (m ((c : Thread nD τ).loc main_arg0)) (ix2 r k) :=
    funext fun k => congrFun (v5_v3 m ρ c) _
  have e2 : (fun (k : Fin 1024) => V5 m ρ c main_v8 (ix2 r k)) = fun k => maxAfter (m ((c : Thread nD τ).loc main_arg0)) (ix2 r k) :=
    funext fun k => congrFun (v5_v8 m ρ c) _
  have e3 : (fun (k : Fin 1024) (j' : Fin 4096) => V5 m ρ c main_v13 (ix2 k j')) = fun k j' => (m ((c : Thread nD τ).loc main_arg1)) (ix2 j' (Spec.colX k)) :=
    funext fun k => funext fun j' => v5_v13 m ρ c k j'
  have e4 : (fun (k : Fin 1024) (j' : Fin 4096) => V5 m ρ c main_v15 (ix2 k j')) = fun k j' => (m ((c : Thread nD τ).loc main_arg1)) (ix2 j' (Spec.colB k)) :=
    funext fun k => funext fun j' => v5_v15 m ρ c k j'
  have e5 : (fun (k : Fin 1024) (j' : Fin 4096) => V5 m ρ c main_v17 (ix2 k j')) = fun k j' => (m ((c : Thread nD τ).loc main_arg1)) (ix2 j' (Spec.colA k)) :=
    funext fun k => funext fun j' => v5_v17 m ρ c k j'
  have e6 : (fun (j' : Fin 4096) => V5 m ρ c main_v20 (ix2 (0 : Fin 1) j')) = fun j' => (m ((c : Thread nD τ).loc main_arg2)) (ix1 j') :=
    funext fun j' => v5_v20 m ρ c j'
  have e7 : (fun (j' : Fin 4096) => V5 m ρ c main_v21 (ix2 (0 : Fin 1) j')) = fun j' => (m ((c : Thread nD τ).loc main_arg3)) (ix1 j') :=
    funext fun j' => v5_v21 m ρ c j'
  have e8 : (fun (j' : Fin 4096) => V5 m ρ c main_v22 (ix2 (0 : Fin 1) j')) = fun j' => (m ((c : Thread nD τ).loc main_arg4)) (ix1 j') :=
    funext fun j' => v5_v22 m ρ c j'
  rw [e0, e1, e2, e3, e4, e5, e6, e7, e8]

/-- The last boundary's contents at the result's buffer are the specification's function of the launch memory. -/
theorem result_eq (c : Dev nD) : W7 m ρ c (Proc.devRef .tc main_v26) = result m c := by
  refine (W7_arr m ρ c 5).trans ((Array1.final (V6 m ρ) c).trans ?_)
  refine funext fun (i : S8192x1024.Idx) => ?_
  obtain ⟨r, q, rfl⟩ : ∃ (r : Fin 8192) (q : Fin 1024), i = ix2 r q := ⟨i 0, i 1, eq_ix2 i⟩
  show Array1.outAt (V6 m ρ) c r q = Spec.resultAt _ _ _ _ _ _ _ _ _ _ r q
  unfold Array1.outAt Spec.resultAt
  have e2 : (fun (j : Fin 4096) (q' : Fin 1024) => V6 m ρ c main_v19 (ix2 j q')) = fun j q' => (m ((c : Thread nD τ).loc main_arg5)) (ix2 q' j) :=
    funext fun j => funext fun q' => by rw [v6_v19, v5_v19]
  have e3 : (fun (q' : Fin 1024) => V6 m ρ c main_v23 (ix2 (0 : Fin 1) q')) = fun q' => (m ((c : Thread nD τ).loc main_arg6)) (ix1 q') :=
    funext fun q' => by rw [v6_v23, v5_v23]
  have e4 : (fun (q' : Fin 1024) => V6 m ρ c main_v24 (ix2 (0 : Fin 1) q')) = fun q' => (m ((c : Thread nD τ).loc main_arg7)) (ix1 q') :=
    funext fun q' => by rw [v6_v24, v5_v24]
  have e5 : (fun (k : Fin 1024) => V6 m ρ c main_arg0 (ix2 r k)) = fun k => (m ((c : Thread nD τ).loc main_arg0)) (ix2 r k) :=
    funext fun k => by rw [v6_arg0, v5_arg0]
  rw [hidden_row m ρ c r, e2, e3, e4, e5]

/-- The run, read: the result's buffer at the specification's function, every argument as launched. -/
theorem run : θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Named.run_named m ρ)

end Cert.KernelIdeal.Whole

end
-- ==== Proof.LibNary3.lean ====
import Idealize.ShloMosaic.Lib.StableHlo.Run

/-!
# A host operation over three operand buffers

A host operation that reads a FAMILY of operand buffers (a concatenation of several arrays) writes, at its result
buffer, its function applied to the family of the operands' contents.  When the family is a literal list of three
buffers, the contents can be named one by one, each at its own buffer: the family `k ↦ contents of buffer k` is the
three contents consed together.  In that form each operand's contents is read at a literal buffer, so whatever wrote
that buffer can be read in turn; in the family form the buffer `k` of the list is not a literal, and the reading stops
there.  (The library has the four-operand form; this is the three-operand one, stated the same way.)
-/

noncomputable section

namespace Idealize.ShloMosaic.StableHlo

variable {τ : Topo} {sig : RefSig} {Val : EltTy → Type}
variable {x a b y : Ref sig .tc}

/-- The result of an operation over the literal family `![x, a, b]`, with each operand's contents at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a simplifier pass: the result buffer is matched up to unfolding. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same for an operation whose function reads the family only through its three entries: the result is that
    function of the three operands' contents, each an ordinary argument at its own buffer. -/
theorem nary3_result_fn
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) := by
  rw [nary3_result]; rfl

end Idealize.ShloMosaic.StableHlo

end
-- ==== Proof.RefSide.lean ====
import proofs.«158192_j37830071943289_1_alg».proof.Proof.RefReadP
import proofs.«158192_j37830071943289_1_alg».proof.Proof.Spec
import Idealize.ShloMosaic.Lib.Pipeline.Value
import Idealize.ShloMosaic.Lib.ValueIdx
import Idealize.ShloMosaic.PureOps.Ideal.Laws

/-!
# The reference, stage by stage, is the specification

The reference joins `x`, the maxima before and the maxima after side by side into one `8192 × 3072` array and
multiplies it by `W1` transposed in ONE product: at row `r` and feature `j` the sum over the `3072` joined columns of
the joined row times row `j` of `W1`.  Column `k` of the joined row is `x[r, k]` in the first third, the maximum before
in the second, the maximum after in the last; so the sum splits into the three sums the specification is written
with (a sum over consecutive indices is the sum of the sums over its thirds: no cancellation, hence no finiteness).
Every later stage acts entry by entry or reduces along a row, exactly as the specification does: the clamp, the two
means (a host sum starts from the float zero, which adds nothing), the reciprocal square root, the scale and shift,
the second product against `W2` transposed, its bias, the scale `gamma` and the input added back.
-/

noncomputable section

open scoped BigOperators

namespace Cert.RefSide

open Cert.ReferenceIdeal Cert.ReferenceIdeal.Gen Cert.ReferenceIdeal.ReadP Idealize.ShloMosaic Idealize.ShloMosaic.ValueIdx

variable (x0 : (⟨S8192x1024, .f32⟩ : BufTy).Contents (Elt Ideal)) (x1 : (⟨S4096x3072, .f32⟩ : BufTy).Contents (Elt Ideal))
  (x2 x3 x4 : (⟨S4096, .f32⟩ : BufTy).Contents (Elt Ideal)) (x5 : (⟨S1024x4096, .f32⟩ : BufTy).Contents (Elt Ideal))
  (x6 x7 : (⟨S1024, .f32⟩ : BufTy).Contents (Elt Ideal))

/-! ## The joined row -/

/-- The first third of the joined row is the row of `x`. -/
theorem cat_X (r : Fin 8192) (k : Fin 1024) :
    val_main_v9 (F := Ideal) x0 (ix2 r (Spec.colX k)) = x0 (ix2 r k) := by
  unfold val_main_v9
  refine concatenate_apply_piece (t := S8192x3072) (a := (1 : Fin 2))
    (xs := [⟨S8192x1024, x0⟩, ⟨S8192x1024, val_main_v3 (F := Ideal) x0⟩, ⟨S8192x1024, val_main_v8 (F := Ideal) x0⟩])
    (h := concatenates_S8192x1024_S8192x1024_S8192x1024_S8192x3072_d1) (j := ix2 r (Spec.colX k)) (k := 0) (hk := by simp)
    (s₁ := S8192x1024) (x₁ := x0) (hxk := rfl) (hr := rfl) (pre := 0) (hpre := by rfl) (i := ix2 r k)
    (hi := fun b hb => ?_) (ha := ?_)
  · match b with
    | ⟨0, _⟩ => rfl
    | ⟨1, _⟩ => exact absurd rfl hb
  · show 0 + k.val = (Spec.colX k).val
    exact Nat.zero_add _

/-- The second third is the row of maxima before. -/
theorem cat_B (r : Fin 8192) (k : Fin 1024) :
    val_main_v9 (F := Ideal) x0 (ix2 r (Spec.colB k)) = val_main_v3 (F := Ideal) x0 (ix2 r k) := by
  unfold val_main_v9
  refine concatenate_apply_piece (t := S8192x3072) (a := (1 : Fin 2))
    (xs := [⟨S8192x1024, x0⟩, ⟨S8192x1024, val_main_v3 (F := Ideal) x0⟩, ⟨S8192x1024, val_main_v8 (F := Ideal) x0⟩])
    (h := concatenates_S8192x1024_S8192x1024_S8192x1024_S8192x3072_d1) (j := ix2 r (Spec.colB k)) (k := 1) (hk := by simp)
    (s₁ := S8192x1024) (x₁ := val_main_v3 (F := Ideal) x0) (hxk := rfl) (hr := rfl) (pre := 1024) (hpre := by rfl) (i := ix2 r k)
    (hi := fun b hb => ?_) (ha := ?_)
  · match b with
    | ⟨0, _⟩ => rfl
    | ⟨1, _⟩ => exact absurd rfl hb
  · show 1024 + k.val = (Spec.colB k).val
    rfl

/-- The last third is the row of maxima after. -/
theorem cat_A (r : Fin 8192) (k : Fin 1024) :
    val_main_v9 (F := Ideal) x0 (ix2 r (Spec.colA k)) = val_main_v8 (F := Ideal) x0 (ix2 r k) := by
  unfold val_main_v9
  refine concatenate_apply_piece (t := S8192x3072) (a := (1 : Fin 2))
    (xs := [⟨S8192x1024, x0⟩, ⟨S8192x1024, val_main_v3 (F := Ideal) x0⟩, ⟨S8192x1024, val_main_v8 (F := Ideal) x0⟩])
    (h := concatenates_S8192x1024_S8192x1024_S8192x1024_S8192x3072_d1) (j := ix2 r (Spec.colA k)) (k := 2) (hk := by simp)
    (s₁ := S8192x1024) (x₁ := val_main_v8 (F := Ideal) x0) (hxk := rfl) (hr := rfl) (pre := 2048) (hpre := by rfl) (i := ix2 r k)
    (hi := fun b hb => ?_) (ha := ?_)
  · match b with
    | ⟨0, _⟩ => rfl
    | ⟨1, _⟩ => exact absurd rfl hb
  · show 2048 + k.val = (Spec.colA k).val
    rfl

/-! ## The first layer -/

/-- The rows the specification is read at. -/
abbrev rowX (r : Fin 8192) : Fin 1024 → EReal := fun k => x0 (ix2 r k)
abbrev rowB (r : Fin 8192) : Fin 1024 → EReal := fun k => val_main_v3 (F := Ideal) x0 (ix2 r k)
abbrev rowA (r : Fin 8192) : Fin 1024 → EReal := fun k => val_main_v8 (F := Ideal) x0 (ix2 r k)

/-- Before the clamp: the one product over the joined row, plus the bias, is the specification's three sums plus the
    bias. -/
theorem pre_eq (r : Fin 8192) (j : Fin 4096) :
    val_main_v14 (F := Ideal) x0 x1 x2 (ix2 r j)
      = Spec.pre (rowX x0 r) (rowB x0 r) (rowA x0 r) (fun k j' => x1 (ix2 j' (Spec.colX k)))
          (fun k j' => x1 (ix2 j' (Spec.colB k))) (fun k j' => x1 (ix2 j' (Spec.colA k))) (fun j' => x2 (ix1 j')) j := by
  rw [val_main_v14_apply, val_main_v11_apply, val_main_v13_apply, val_main_v12_apply]
  have hl : ∀ k : Fin 3072, lidx_main_v11 (ix2 r j) k = ix2 r k := fun k =>
    funext fun a => Fin.ext (by match a with | ⟨0, _⟩ => rfl | ⟨1, _⟩ => rfl)
  have hr : ∀ k : Fin 3072, val_main_v10 (F := Ideal) x1 (ridx_main_v11 (ix2 r j) k) = x1 (ix2 j k) := fun k => by
    rw [val_main_v10_apply]
    exact congrArg x1 (funext fun a => Fin.ext (by match a with | ⟨0, _⟩ => rfl | ⟨1, _⟩ => rfl))
  have hb : idx_main_v12 (idx_main_v13 (ix2 r j)) = ix1 j :=
    funext fun a => Fin.ext (by match a with | ⟨0, _⟩ => rfl)
  have hsum : ∑ k : Fin 3072, val_main_v9 (F := Ideal) x0 (lidx_main_v11 (ix2 r j) k) * val_main_v10 (F := Ideal) x1 (ridx_main_v11 (ix2 r j) k)
      = ∑ k : Fin 3072, val_main_v9 (F := Ideal) x0 (ix2 r k) * x1 (ix2 j k) :=
    Finset.sum_congr rfl fun k _ => by rw [hl k, hr k]
  rw [hsum, hb, Spec.sum_thirds (fun k => val_main_v9 (F := Ideal) x0 (ix2 r k) * x1 (ix2 j k))]
  simp only [cat_X, cat_B, cat_A]
  rfl

/-- The clamped first layer at row `r`. -/
abbrev act (r : Fin 8192) : Fin 4096 → EReal := fun j =>
  max (Spec.pre (rowX x0 r) (rowB x0 r) (rowA x0 r) (fun k j' => x1 (ix2 j' (Spec.colX k)))
    (fun k j' => x1 (ix2 j' (Spec.colB k))) (fun k j' => x1 (ix2 j' (Spec.colA k))) (fun j' => x2 (ix1 j')) j)
    (Ideal.ofBits .f32 0x00000000#32)

theorem act_eq (r : Fin 8192) (j : Fin 4096) : val_main_v15 (F := Ideal) x0 x1 x2 (ix2 r j) = act x0 x1 x2 r j := by
  rw [val_main_v15_apply, pre_eq, val_main_call2_v0_apply] <;> rfl

/-! ## The layer norm -/

/-- The row's mean: the host's sum starts from the float zero. -/
theorem mean_eq (r : Fin 8192) (u : Fin 1) :
    val_main_v19 (F := Ideal) x0 x1 x2 (ix2 r u) = Spec.mean (act x0 x1 x2 r) := by
  rw [val_main_v19_apply, val_main_v17_apply, val_main_v16_apply, val_main_v18_apply]
  have hi : ∀ k : Fin 4096, idx_main_v16 (idx_main_v17 (ix2 r u)) k = ix2 r k := fun k =>
    funext fun a => Fin.ext (by match a with | ⟨0, _⟩ => rfl | ⟨1, _⟩ => rfl)
  have hsum : ∑ k : Fin 4096, val_main_v15 (F := Ideal) x0 x1 x2 (idx_main_v16 (idx_main_v17 (ix2 r u)) k)
      = ∑ k : Fin 4096, act x0 x1 x2 r k :=
    Finset.sum_congr rfl fun k _ => by rw [hi k, act_eq]
  rw [hsum]
  show Ideal.div (Ideal.ofBits .f32 0x00000000#32 + ∑ k : Fin 4096, act x0 x1 x2 r k) (Ideal.ofBits .f32 0x45800000#32)
    = Ideal.div (∑ k : Fin 4096, act x0 x1 x2 r k) (Ideal.ofBits .f32 0x45800000#32)
  rw [Ideal.ofBits_zero_f32, zero_add]

/-- The centred row. -/
theorem centred_eq (r : Fin 8192) (j : Fin 4096) :
    val_main_v21 (F := Ideal) x0 x1 x2 (ix2 r j) = act x0 x1 x2 r j - Spec.mean (act x0 x1 x2 r) := by
  rw [val_main_v21_apply, val_main_v20_apply, act_eq]
  have hi : idx_main_v20 (ix2 r j) = ix2 r (0 : Fin 1) :=
    funext fun a => Fin.ext (by match a with | ⟨0, _⟩ => rfl | ⟨1, _⟩ => rfl)
  rw [hi, mean_eq] <;> rfl

/-- The row's variance: the mean of the squared centred row. -/
theorem var_eq (r : Fin 8192) (u : Fin 1) :
    val_main_v26 (F := Ideal) x0 x1 x2 (ix2 r u)
      = Spec.mean (fun j => (act x0 x1 x2 r j - Spec.mean (act x0 x1 x2 r)) * (act x0 x1 x2 r j - Spec.mean (act x0 x1 x2 r))) := by
  rw [val_main_v26_apply, val_main_v24_apply, val_main_v23_apply, val_main_v25_apply]
  have hi : ∀ k : Fin 4096, idx_main_v23 (idx_main_v24 (ix2 r u)) k = ix2 r k := fun k =>
    funext fun a => Fin.ext (by match a with | ⟨0, _⟩ => rfl | ⟨1, _⟩ => rfl)
  have hsum : ∑ k : Fin 4096, val_main_v22 (F := Ideal) x0 x1 x2 (idx_main_v23 (idx_main_v24 (ix2 r u)) k)
      = ∑ k : Fin 4096, (act x0 x1 x2 r k - Spec.mean (act x0 x1 x2 r)) * (act x0 x1 x2 r k - Spec.mean (act x0 x1 x2 r)) :=
    Finset.sum_congr rfl fun k _ => by rw [hi k, val_main_v22_apply, centred_eq] <;> rfl
  rw [hsum]
  show Ideal.div (Ideal.ofBits .f32 0x00000000#32
      + ∑ k : Fin 4096, (act x0 x1 x2 r k - Spec.mean (act x0 x1 x2 r)) * (act x0 x1 x2 r k - Spec.mean (act x0 x1 x2 r)))
      (Ideal.ofBits .f32 0x45800000#32)
    = Ideal.div (∑ k : Fin 4096, (act x0 x1 x2 r k - Spec.mean (act x0 x1 x2 r)) * (act x0 x1 x2 r k - Spec.mean (act x0 x1 x2 r)))
      (Ideal.ofBits .f32 0x45800000#32)
  rw [Ideal.ofBits_zero_f32, zero_add]

/-- The normalised, scaled and shifted row. -/
theorem ln_eq (r : Fin 8192) (j : Fin 4096) :
    val_main_v39 (F := Ideal) x0 x1 x2 x3 x4 (ix2 r j)
      = Spec.layerNorm (act x0 x1 x2 r) (fun j' => x3 (ix1 j')) (fun j' => x4 (ix1 j')) j := by
  rw [val_main_v39_apply, val_main_v36_apply, val_main_v33_apply, val_main_v28_apply, val_main_v27_apply,
    val_main_v32_apply, val_main_v31_apply, val_main_v30_apply, val_main_v29_apply, val_main_v35_apply,
    val_main_v34_apply, val_main_v38_apply, val_main_v37_apply, act_eq]
  have h27 : idx_main_v27 (ix2 r j) = ix2 r (0 : Fin 1) :=
    funext fun a => Fin.ext (by match a with | ⟨0, _⟩ => rfl | ⟨1, _⟩ => rfl)
  have h32 : idx_main_v32 (ix2 r j) = ix2 r (0 : Fin 1) :=
    funext fun a => Fin.ext (by match a with | ⟨0, _⟩ => rfl | ⟨1, _⟩ => rfl)
  have h35 : idx_main_v34 (idx_main_v35 (ix2 r j)) = ix1 j := funext fun a => Fin.ext (by match a with | ⟨0, _⟩ => rfl)
  have h38 : idx_main_v37 (idx_main_v38 (ix2 r j)) = ix1 j := funext fun a => Fin.ext (by match a with | ⟨0, _⟩ => rfl)
  rw [h27, h32, h35, h38, mean_eq, var_eq] <;> rfl

/-! ## The second layer and the whole result -/

/-- The hidden row of the specification is the reference's normalised row. -/
theorem hidden_eq (r : Fin 8192) :
    (fun j => val_main_v39 (F := Ideal) x0 x1 x2 x3 x4 (ix2 r j))
      = Spec.hidden (rowX x0 r) (rowB x0 r) (rowA x0 r) (fun k j' => x1 (ix2 j' (Spec.colX k)))
          (fun k j' => x1 (ix2 j' (Spec.colB k))) (fun k j' => x1 (ix2 j' (Spec.colA k)))
          (fun j' => x2 (ix1 j')) (fun j' => x3 (ix1 j')) (fun j' => x4 (ix1 j')) :=
  funext fun j => ln_eq x0 x1 x2 x3 x4 r j

/-- The reference's result is the specification's function of the argument arrays and the reference's two arrays
    of running maxima. -/
theorem result_eq :
    val_main_v48 (F := Ideal) x0 x1 x2 x3 x4 x5 x6 x7
      = Spec.result x0 (val_main_v3 (F := Ideal) x0) (val_main_v8 (F := Ideal) x0) x1 x2 x3 x4 x5 x6 x7 := by
  refine funext fun (i : S8192x1024.Idx) => ?_
  obtain ⟨r, q, rfl⟩ : ∃ (r : Fin 8192) (q : Fin 1024), i = ix2 r q := ⟨i 0, i 1, eq_ix2 i⟩
  show _ = Spec.resultAt _ _ _ _ _ _ _ _ _ _ r q
  unfold Spec.resultAt
  rw [← hidden_eq x0 x1 x2 x3 x4 r]
  rw [val_main_v48_apply, val_main_v47_apply, val_main_v44_apply, val_main_v41_apply, val_main_v43_apply,
    val_main_v42_apply, val_main_v46_apply, val_main_v45_apply]
  have hl : ∀ k : Fin 4096, lidx_main_v41 (ix2 r q) k = ix2 r k := fun k =>
    funext fun a => Fin.ext (by match a with | ⟨0, _⟩ => rfl | ⟨1, _⟩ => rfl)
  have hr : ∀ k : Fin 4096, val_main_v40 (F := Ideal) x5 (ridx_main_v41 (ix2 r q) k) = x5 (ix2 q k) := fun k => by
    rw [val_main_v40_apply]
    exact congrArg x5 (funext fun a => Fin.ext (by match a with | ⟨0, _⟩ => rfl | ⟨1, _⟩ => rfl))
  have h43 : idx_main_v42 (idx_main_v43 (ix2 r q)) = ix1 q := funext fun a => Fin.ext (by match a with | ⟨0, _⟩ => rfl)
  have h46 : idx_main_v45 (idx_main_v46 (ix2 r q)) = ix1 q := funext fun a => Fin.ext (by match a with | ⟨0, _⟩ => rfl)
  have hsum : ∑ k : Fin 4096, val_main_v39 (F := Ideal) x0 x1 x2 x3 x4 (lidx_main_v41 (ix2 r q) k) * val_main_v40 (F := Ideal) x5 (ridx_main_v41 (ix2 r q) k)
      = ∑ k : Fin 4096, val_main_v39 (F := Ideal) x0 x1 x2 x3 x4 (ix2 r k) * x5 (ix2 q k) :=
    Finset.sum_congr rfl fun k _ => by rw [hl k, hr k]
  rw [hsum, h43, h46] <;> rfl

end Cert.RefSide

end
-- ==== Proof.lean ====
/-
  A feed-forward block over `8192` rows of `1024` numbers.  Each row is extended by the running maxima strictly before
  it and strictly after it (computed on the host by both programs with the same operations), multiplied by a
  `4096 × 3072` weight matrix, shifted, clamped at zero, layer-normalised over its `4096` features, multiplied by a
  `1024 × 4096` weight matrix, shifted, scaled and added back to the row.

  The kernel program does this with two kernels: the first takes `256` rows at a time and accumulates THREE products —
  the row block, the maxima-before block and the maxima-after block, each against its own third of the first weight
  matrix — into a scratch block, then the bias, the clamp and the layer norm; the second takes `512` rows at a time for
  the second product, its bias, the scale and the residual.  The reference joins the three row blocks side by side and
  takes ONE product over the `3072` joined columns.

  Read on the extended reals, where every operation is exact and a change of float format is the identity, both
  programs compute one function of the argument arrays, `Cert.Spec.result`.  The one law between them is that a sum
  over `3072` consecutive columns is the sum of the three sums over its thirds; it holds in any commutative additive
  monoid, so the precondition (finite inputs) is not used.  Both sides divide the row sums by the same float `4096.0`,
  add the same float nearest `1e-6` before the reciprocal square root, and apply the remaining steps in the same order.

  The modules: `Spec` (the function, row by row, and the splitting law); `Body0`, `Body1` (what each kernel stores at one
  grid point, at an entry); `Array0`, `Array1` (the stored blocks are the restrictions of one whole-array function, and
  they cover the array); `HostSide` (what the host operations leave in each operand buffer); `KernelRun` (the program's
  run with its result named); `KernelValue` (the result is the specification's function); `RefSide` (the reference's
  stages, one at a time, are the same function).
-/
import proofs.«158192_j37830071943289_1_alg».proof.Defs
import proofs.«158192_j37830071943289_1_alg».proof.Proof.Gen.Kernel
import proofs.«158192_j37830071943289_1_alg».proof.Proof.Gen.Kernel.Skeleton
import proofs.«158192_j37830071943289_1_alg».proof.Proof.Gen.Kernel.Launch
import proofs.«158192_j37830071943289_1_alg».proof.Proof.Gen.Kernel.Points
import proofs.«158192_j37830071943289_1_alg».proof.Proof.Gen.Kernel.Frame
import proofs.«158192_j37830071943289_1_alg».proof.Proof.Gen.KernelIdeal
import proofs.«158192_j37830071943289_1_alg».proof.Proof.Gen.KernelIdeal.Skeleton
import proofs.«158192_j37830071943289_1_alg».proof.Proof.Gen.KernelIdeal.Launch
import proofs.«158192_j37830071943289_1_alg».proof.Proof.Gen.KernelIdeal.Points
import proofs.«158192_j37830071943289_1_alg».proof.Proof.Gen.KernelIdeal.Frame
import proofs.«158192_j37830071943289_1_alg».proof.Proof.Gen.ReferenceIdeal
import proofs.«158192_j37830071943289_1_alg».proof.Proof.Gen.Pre_finite_inputs
import proofs.«158192_j37830071943289_1_alg».proof.Proof.KernelValue
import proofs.«158192_j37830071943289_1_alg».proof.Proof.RefSide
import Idealize.ShloMosaic.Adequacy
import Idealize.ShloMosaic.Init

noncomputable section

namespace Cert.Proof

open Idealize.ShloMosaic Idealize.SL.Sem

/-- The running maxima before, as the kernel program's host operations compute them and as the reference's do: the
    same operations on the same array. -/
theorem maxBefore_eq (X : (⟨Cert.KernelIdeal.S8192x1024, .f32⟩ : BufTy).Contents (Elt Ideal)) :
    Cert.KernelIdeal.HostSide.maxBefore X = Cert.ReferenceIdeal.ReadP.val_main_v3 (F := Ideal) X := by
  unfold Cert.KernelIdeal.HostSide.maxBefore Cert.ReferenceIdeal.ReadP.val_main_v3 Cert.ReferenceIdeal.ReadP.val_main_v2
    Cert.ReferenceIdeal.ReadP.val_main_v1 Cert.ReferenceIdeal.ReadP.val_main_v0 Cert.ReferenceIdeal.ReadP.val_main_call0_v0
    Cert.ReferenceIdeal.ReadP.val_main_call0_cst Cert.ReferenceIdeal.ReadP.val_main_cst
  rfl

/-- The running maxima after, likewise. -/
theorem maxAfter_eq (X : (⟨Cert.KernelIdeal.S8192x1024, .f32⟩ : BufTy).Contents (Elt Ideal)) :
    Cert.KernelIdeal.HostSide.maxAfter X = Cert.ReferenceIdeal.ReadP.val_main_v8 (F := Ideal) X := by
  unfold Cert.KernelIdeal.HostSide.maxAfter Cert.ReferenceIdeal.ReadP.val_main_v8 Cert.ReferenceIdeal.ReadP.val_main_v7
    Cert.ReferenceIdeal.ReadP.val_main_v6 Cert.ReferenceIdeal.ReadP.val_main_v5 Cert.ReferenceIdeal.ReadP.val_main_v4
    Cert.ReferenceIdeal.ReadP.val_main_v0 Cert.ReferenceIdeal.ReadP.val_main_call1_v0
    Cert.ReferenceIdeal.ReadP.val_main_call1_cst Cert.ReferenceIdeal.ReadP.val_main_cst
  rfl

/-- The kernel program, as printed, runs and leaves its arguments as launched. -/
theorem frame_p : Cert.frame_Kernel := fun m ρ _ => Cert.Kernel.Gen.frame m ρ

/-- So does its reading on the extended reals. -/
theorem frame_pi : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten between the kernel program and its reading on the extended reals. -/
theorem preserves : Cert.preserves_Kernel_KernelIdeal := trivial

/-- On the extended reals the kernel program's result and the reference's are the specification's function of
    argument arrays that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v48_eq, Cert.RefSide.result_eq, a0, a1, a2, a3, a4, a5, a6, a7,
    ← maxBefore_eq, ← maxAfter_eq]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
